-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x41 : S_.BroadcastsInDim S128x41 (![] : Fin 0 → Fin S128x41.rank)
  reducesTo_S128x41_S_d0_1 : S128x41.ReducesTo [0, 1] S_
  bcast_S_S41 : S_.BroadcastsInDim S41 (![] : Fin 0 → Fin S41.rank)
  reducesTo_S41_S_d0 : S41.ReducesTo [0] S_

variable [Facts]

def fn_part1 {F : FTy → Type} [FloatOps F] (main_arg5 : FVec F S128 .f32) (main_arg6 : FVec F S128x41 .f32) (main_arg7 : FVec F S41 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x41 .f32 := Host.absf main_arg6
  let main_cst_8 : FVec F S_ .f32 := constant S_ .f32 0x7F800000#32
  let main_v25 : FVec F S128x41 .f32 := broadcastInDim S128x41 ![] bcast_S_S128x41 main_cst_8
  let main_v26 : IVec S128x41 1 := cmpf .olt main_v24 main_v25
  let main_c_9 : IVec S_ 1 := constantI S_ 1 1#1
  let main_v27 : IVec S_ 1 := (fun x v => Host.reduce IntOp.andi x v reducesTo_S128x41_S_d0_1 h_S_) main_v26 main_c_9
  let main_v28 : IVec S_ 1 := andi main_v23 main_v27
  let main_v29 : FVec F S41 .f32 := Host.absf main_arg7
  let main_cst_10 : FVec F S_ .f32 := constant S_ .f32 0x7F800000#32
  let main_v30 : FVec F S41 .f32 := broadcastInDim S41 ![] bcast_S_S41 main_cst_10
  let main_v31 : IVec S41 1 := cmpf .olt main_v29 main_v30
  let main_c_11 : IVec S_ 1 := constantI S_ 1 1#1
  let main_v32 : IVec S_ 1 := (fun x v => Host.reduce IntOp.andi x v reducesTo_S41_S_d0 h_S_) main_v31 main_c_11
  let main_v33 : IVec S_ 1 := andi main_v28 main_v32
  main_v33

def fn {F : FTy → Type} [FloatOps F] (main_arg0 : FVec F S100000x256 .f32) (main_arg1 : IVec S2x1600000 32) (main_arg2 : FVec F S256x128 .f32) (main_arg3 : FVec F S128 .f32) (main_arg4 : FVec F S128x128 .f32) (main_arg5 : FVec F S128 .f32) (main_arg6 : FVec F S128x41 .f32) (main_arg7 : FVec F S41 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S100000x41 : Shape := ⟨2, ![100000, 41]⟩
abbrev S5000x41 : Shape := ⟨2, ![5000, 41]⟩
abbrev S1x41 : Shape := ⟨2, ![1, 41]⟩
abbrev S5000 : Shape := ⟨1, ![5000]⟩

abbrev nBuf : Space → Nat
  | .hbm => 65
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x41, .f32⟩
  | .hbm, ⟨7, _⟩ => ⟨S41, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x128, .bf16⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000x128, .bf16⟩
  | .hbm, ⟨43, _⟩ => ⟨S1700000x128, .f32⟩
  | .hbm, ⟨44, _⟩ => ⟨S_, .f32⟩
  | .hbm, ⟨45, _⟩ => ⟨S100000x128, .f32⟩
  | .hbm, ⟨46, _⟩ => ⟨S1700000x1, .i32⟩
  | .hbm, ⟨47, _⟩ => ⟨S100000x128, .f32⟩
  | .hbm, ⟨48, _⟩ => ⟨S100000x128, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S_, .f32⟩
  | .hbm, ⟨61, _⟩ => ⟨S100000x128, .f32⟩
  | .hbm, ⟨62, _⟩ => ⟨S1700000x1, .i32⟩
  | .hbm, ⟨63, _⟩ => ⟨S100000x128, .f32⟩
  | .hbm, ⟨64, _⟩ => ⟨S100000x41, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .bf16⟩
  | .local _ .vmem, ⟨16, _⟩ => ⟨S5000x128, .bf16⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S128, .f32⟩
  | .local _ .vmem, ⟨24, _⟩ => ⟨S128x41, .f32⟩
  | .local _ .vmem, ⟨25, _⟩ => ⟨S41, .f32⟩
  | .local _ .vmem, ⟨26, _⟩ => ⟨S5000x41, .f32⟩
  | .local _ .vmem, ⟨27, _⟩ => ⟨S5000x41, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x41 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S41 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x41 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x41_S128x41_0_0 : ∀ a, (![0, 0] : Fin 2 → Nat) a + S128x41.size a ≤ S128x41.size a
  h_S128x41 : 0 < S128x41.numel
  inb_S41_S41_0 : ∀ a, (![0] : Fin 1 → Nat) a + S41.size a ≤ S41.size a
  h_S41 : 0 < S41.numel
  shapeCasts_S41_S1x41 : S41.ShapeCasts S1x41
  broadcasts_S1x41_S5000x41 : S1x41.Broadcasts S5000x41
  reduces_S5000x41_S5000 : S5000x41.Reduces [1] S5000
  shapeCasts_S5000_S5000x1 : S5000.ShapeCasts S5000x1
  broadcasts_S5000x1_S5000x41 : S5000x1.Broadcasts S5000x41
  inb_S5000x41_S5000x41_0_0 : ∀ a, (![0, 0] : Fin 2 → Nat) a + S5000x41.size a ≤ S5000x41.size a
  h_S5000x41 : 0 < S5000x41.numel
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x128_S5000x128_1_0_0_1_n_n_wf : DotDims.WF S5000x128 S128x128 S5000x128 [1] [0] [0] [1] [] []
  dot_S5000x128_S128x41_S5000x41_1_0_0_1_n_n_wf : DotDims.WF S5000x128 S128x41 S5000x41 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .bf16 = 32 ∨ (Rect.block (s := S100000x128) S5000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x41.size a ≤ S128x41.size a
  hwx2_4 : ∀ i : grid2.Coords, EltTy.bits .f32 = 32 ∨ (Rect.block (s := S128x41) S128x41.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S41.size a ≤ S41.size a
  hwx2_5 : ∀ i : grid2.Coords, EltTy.bits .f32 = 32 ∨ (Rect.block (s := S41) S41.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x41.size a ≤ S100000x41.size a
  hwx2_6 : ∀ i : grid2.Coords, EltTy.bits .f32 = 32 ∨ (Rect.block (s := S100000x41) S5000x41.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x41_S5000x41_1_0_0_1_n_n : DotDims S5000x128 S128x41 S5000x41 where
  lhsContracting := [1]
  rhsContracting := [0]
  lhsNonContracting := [0]
  rhsNonContracting := [1]
  lhsBatch := []
  rhsBatch := []
  wf := dot_S5000x128_S128x41_S5000x41_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_1) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v30_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x41.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S41.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v42) S5000x41.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x41 : Shape := ⟨2, ![128, 41]⟩
abbrev S41 : Shape := ⟨1, ![41]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x41 : Shape := ⟨2, ![100000, 41]⟩
abbrev S1x41 : Shape := ⟨2, ![1, 41]⟩
abbrev S100000x1 : Shape := ⟨2, ![100000, 1]⟩

abbrev nBuf : Space → Nat
  | .hbm => 117
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x41, .f32⟩
  | .hbm, ⟨7, _⟩ => ⟨S41, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x128, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x128, .f32⟩
  | .hbm, ⟨61, _⟩ => ⟨S1700000x1, .f32⟩
  | .hbm, ⟨62, _⟩ => ⟨S1700000x128, .f32⟩
  | .hbm, ⟨63, _⟩ => ⟨S1700000x128, .f32⟩
  | .hbm, ⟨64, _⟩ => ⟨S_, .f32⟩
  | .hbm, ⟨65, _⟩ => ⟨S100000x128, .f32⟩
  | .hbm, ⟨66, _⟩ => ⟨S1700000x1, .i32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x128, .f32⟩
  | .hbm, ⟨84, _⟩ => ⟨S1700000x1, .f32⟩
  | .hbm, ⟨85, _⟩ => ⟨S1700000x128, .f32⟩
  | .hbm, ⟨86, _⟩ => ⟨S1700000x128, .f32⟩
  | .hbm, ⟨87, _⟩ => ⟨S_, .f32⟩
  | .hbm, ⟨88, _⟩ => ⟨S100000x128, .f32⟩
  | .hbm, ⟨89, _⟩ => ⟨S1700000x1, .i32⟩
  | .hbm, ⟨90, _⟩ => ⟨S100000x128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S100000x128, .f32⟩
  | .hbm, ⟨96, _⟩ => ⟨S100000x128, .f32⟩
  | .hbm, ⟨97, _⟩ => ⟨S100000x128, .f32⟩
  | .hbm, ⟨98, _⟩ => ⟨S100000x41, .f32⟩
  | .hbm, ⟨99, _⟩ => ⟨S1x41, .f32⟩
  | .hbm, ⟨100, _⟩ => ⟨S100000x41, .f32⟩
  | .hbm, ⟨101, _⟩ => ⟨S100000x41, .f32⟩
  | .hbm, ⟨102, _⟩ => ⟨S_, .f32⟩
  | .hbm, ⟨103, _⟩ => ⟨S100000, .f32⟩
  | .hbm, ⟨104, _⟩ => ⟨S_, .f32⟩
  | .hbm, ⟨105, _⟩ => ⟨S100000, .f32⟩
  | .hbm, ⟨106, _⟩ => ⟨S100000, .f32⟩
  | .hbm, ⟨107, _⟩ => ⟨S100000x1, .f32⟩
  | .hbm, ⟨108, _⟩ => ⟨S100000x41, .f32⟩
  | .hbm, ⟨109, _⟩ => ⟨S100000x41, .f32⟩
  | .hbm, ⟨110, _⟩ => ⟨S100000x41, .f32⟩
  | .hbm, ⟨111, _⟩ => ⟨S_, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x41, .f32⟩
  | .hbm, ⟨116, _⟩ => ⟨S100000x41, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_call3_cst : Ref sig .tc := ⟨.hbm, 102, rfl⟩
abbrev main_call3_v0 : Ref sig .tc := ⟨.hbm, 103, rfl⟩
abbrev main_call3_cst_0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_call3_v5 : Ref sig .tc := ⟨.hbm, 109, rfl⟩
abbrev main_call3_v6 : Ref sig .tc := ⟨.hbm, 110, rfl⟩
abbrev main_call3_cst_1 : Ref sig .tc := ⟨.hbm, 111, rfl⟩
abbrev main_call3_v7 : Ref sig .tc := ⟨.hbm, 112, rfl⟩
abbrev main_call3_v8 : Ref sig .tc := ⟨.hbm, 113, rfl⟩
abbrev main_call3_v9 : Ref sig .tc := ⟨.hbm, 114, rfl⟩
abbrev main_call3_v10 : Ref sig .tc := ⟨.hbm, 115, rfl⟩
abbrev main_v73 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S41_S1x41_1 : S41.BroadcastsInDim S1x41 (![1] : Fin 1 → Fin S1x41.rank)
  bcast_S1x41_S100000x41_0_1 : S1x41.BroadcastsInDim S100000x41 (![0, 1] : Fin 2 → Fin S100000x41.rank)
  reducesTo_S100000x41_S100000_d1 : S100000x41.ReducesTo [1] S100000
  h_S_ : 0 < S_.numel
  bcast_S100000_S100000x1_0 : S100000.BroadcastsInDim S100000x1 (![0] : Fin 1 → Fin S100000x1.rank)
  bcast_S100000x1_S100000x41_0_1 : S100000x1.BroadcastsInDim S100000x41 (![0, 1] : Fin 2 → Fin S100000x41.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  dot_S100000x128_S128x41_S100000x41_1_0_0_1_n_n_wf : DotDims.WF S100000x128 S128x41 S100000x41 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x41_S100000x41_1_0_0_1_n_n : DotDims S100000x128 S128x41 S100000x41 where
  lhsContracting := [1]
  rhsContracting := [0]
  lhsNonContracting := [0]
  rhsNonContracting := [1]
  lhsBatch := []
  rhsBatch := []
  wf := dot_S100000x128_S128x41_S100000x41_1_0_0_1_n_n_wf

class Facts : Prop extends Facts₀ where

variable [Facts]
-- ==== Proof.KernelRun.lean ====
/-
  The idealized kernel's run with its result buffer named.

  @main is eight segments: three stretches of host operations, the first pallas_call, a stretch, the second
  pallas_call, a stretch, the third pallas_call.  Every weakly fair execution terminates, nothing faults, the
  arguments end as launched, and the result buffer ends at the contents the fold through the segments gives it: after a
  stretch of host operations a buffer holds the operations' value of the buffers before it, after a pallas_call each of
  its arrays holds what the pipeline's write-backs leave and every other buffer is as it was.
-/
import proofs.«134318_j91207925498527_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments: the result buffer `main_v42` ends at the last boundary's contents `W8`, and
    the argument arrays end as launched. -/
theorem run_value : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.LibColumnLayout.lean ====
/-
  Column vectors read at an index: a column `[a, 1]` spread over the columns of `[a, b]`, and a vector `[a]` made a
  column `[a, 1]` (by a shape cast, or by the host's broadcast along a new trailing unit axis).
-/
import Idealize.ShloMosaic.Lib.Pipeline.Value
import Idealize.ShloMosaic.Lib.ValueIdx
import Idealize.ShloMosaic.Lib.ValueLayout

noncomputable section

namespace Cert.LibColumnLayout

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` vector along a new trailing unit axis reads, at `(p, u)`, the vector at `p`. -/
theorem broadcastInDim_a_a1_apply {a : ℕ} (dims : Fin 1 → Fin 2) (hdims : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hdims]
    split
    · have := p.isLt; omega
    · rfl

end Cert.LibColumnLayout

end
-- ==== Proof.Region0.lean ====
/-
  The first pallas_call, as one function of the arrays it finds.

  The call runs over 20 blocks of 5000 rows.  At block `t` the body multiplies rows `5000 t … 5000 t + 4999` of the
  node features (256 columns) by the whole weight matrix (256 × 128) and scales row `r` of the product by the entry of
  row `r` of the per-node column.  The blocks tile the rows, so the array the call leaves is, at `(r, f)`,
      ( Σ_{k < 256} x[r, k] · w[k, f] ) · d[r, 0].
-/
import proofs.«134318_j91207925498527_2_alg».proof.Proof.Gen.KernelIdeal.Frame
import proofs.«134318_j91207925498527_2_alg».proof.Proof.LibMatmulNN
import proofs.«134318_j91207925498527_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.ValueIdx Idealize.ShloMosaic.TcCoe Idealize.SL.Sem
open Idealize.ShloMosaic.Pipeline (Dat Cfg Window)

/-- The array the call leaves: the matrix product, each row scaled by the column's entry of that row. -/
def scaledProduct (x : S100000x256.Idx → EReal) (w : S256x128.Idx → EReal) (d : S100000x1.Idx → EReal) :
    S100000x128.Idx → EReal :=
  fun i => (∑ k : Fin 256, x (ix2 (i 0) k) * w (ix2 k (i 1))) * d (ix2 (i 0) (0 : Fin 1))

theorem hz : (![0, 0] : Fin 2 → Nat) = fun _ => 0 := funext fun a => by fin_cases a <;> rfl

/-- What the body stores, read at row `p`, column `q` of the block: the product's entry scaled by the column's entry of
    row `p` (a change of float format is the identity on extended reals). -/
theorem pay_apply (x0 : Vec Ideal S5000x256 .f32) (x1 : Vec Ideal S256x128 .f32) (x2 : Vec Ideal S5000x1 .f32)
    (p : Fin 5000) (q : Fin 128) :
    k0_pay1 (F := Ideal) x0 x1 x2 (ix2 p q) = (∑ k : Fin 256, x0 (ix2 p k) * x1 (ix2 k q)) * x2 (ix2 p (0 : Fin 1)) := by
  unfold k0_pay1
  show (matmul (F := Ideal) dot_S5000x256_S256x128_S5000x128_1_0_0_1_n_n none (truncf .bf16 x0 bitsLt_bf16_f32)
        (truncf .bf16 x1 bitsLt_bf16_f32) (constant S5000x128 .f32 0x00000000#32)) (ix2 p q)
      * (broadcastTo S5000x128 (shapeCast S5000x1 x2 shapeCasts_S5000x1_S5000x1) broadcasts_S5000x1_S5000x128) (ix2 p q) = _
  rw [shapeCast_self, Cert.LibColumnLayout.broadcastTo_a1_ab_apply]
  refine congrArg (· * x2 (ix2 p (0 : Fin 1))) ?_
  exact Cert.LibMatmulNN.matmul_zero_apply dot_S5000x256_S256x128_S5000x128_1_0_0_1_n_n rfl none _ _ p q

/-- The index maps over the grid: the row blocks of the features, the column and the result move together, block `t`
    at point `t`; the weight matrix is one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-- What point `t` writes back is block `t` of `scaledProduct` of the arrays the call finds. -/
theorem flushed_eq (c : Dev nD) (t : Fin cfg0.N) :
    (dat0 (F := Ideal) V c).flushed 3 t = ((cfg0.win 3).blk t).view.read (Elt Ideal)
      (scaledProduct (V c main_arg0) (V c main_arg2) (V c main_v17)) := by
  show (cfg0.win 3).cut (grid0.coords t) ((dat0 V c).after 3 t) = _
  rw [after0_3]
  unfold out0_3
  rw [View.canon_unit_zero hz]
  simp only [View.ld_unit_zero (S := S5000x256) hz, View.ld_unit_zero (S := S256x128) hz, View.ld_unit_zero (S := S5000x1) hz]
  obtain ⟨e0, e1, e2, e3, e4, e5, e6, e7⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = scaledProduct (V c main_arg0) (V c main_arg2) (V c main_v17) (((cfg0.win 3).blk t).view.emb (ix2 p q))
  rw [pay_apply]
  have h0 : ∀ k : Fin 256, iblk0 V c 0 t (ix2 p k) = V c main_arg0 (ix2 ((((cfg0.win 3).blk t).view.emb (ix2 p q)) 0) k) := by
    intro k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_3.index t (0 : Fin 2) * 5000 + 1 * p.val; omega
    | ⟨1, _⟩ => show win0_0.index t (1 : Fin 2) * 256 + 1 * k.val = k.val; omega
  have h1 : ∀ k : Fin 256, iblk0 V c 1 t (ix2 k q) = V c main_arg2 (ix2 k ((((cfg0.win 3).blk t).view.emb (ix2 p q)) 1)) := by
    intro k
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = win0_3.index t (1 : Fin 2) * 128 + 1 * q.val; omega
  have h2 : iblk0 V c 2 t (ix2 p (0 : Fin 1)) = V c main_v17 (ix2 ((((cfg0.win 3).blk t).view.emb (ix2 p q)) 0) (0 : Fin 1)) := by
    show V c main_v17 (((cfg0.win 2).blk t).view.emb (ix2 p (0 : Fin 1))) = _
    refine congrArg (V c main_v17) (funext fun a => Fin.ext ?_)
    match a with
    | ⟨0, _⟩ => show win0_2.index t (0 : Fin 2) * 5000 + 1 * p.val = win0_3.index t (0 : Fin 2) * 5000 + 1 * p.val; omega
    | ⟨1, _⟩ => show win0_2.index t (1 : Fin 2) * 1 + 1 * 0 = 0; omega
  rw [h2]
  unfold scaledProduct
  refine congrArg (· * V c main_v17 (ix2 ((((cfg0.win 3).blk t).view.emb (ix2 p q)) 0) (0 : Fin 1))) ?_
  exact Finset.sum_congr rfl fun k _ => by rw [h0 k, h1 k]

/-- An index of the result array is in point `t`'s block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v18).slice (win0_3.rect t)).set ↔ _
  rw [View.set_slice_whole, Rect.mem_set_unit]
  exact Iff.rfl

/-- The blocks tile the result array: row `r` is in the block of point `r / 5000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_3 _, ?_⟩
  rw [mem_blk]
  obtain ⟨-, -, -, -, -, -, e6, e7⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e7]; omega

/-- THE ARRAY the first call leaves: `scaledProduct` of the arrays it finds. -/
theorem final (c : Dev nD) :
    (dat0 (F := Ideal) V c).arrAt 3 cfg0.N = scaledProduct (V c main_arg0) (V c main_arg2) (V c main_v17) :=
  (dat0 (F := Ideal) V c).arrAt_eq_of_cover 3 _ (fun t _ => flushed_eq V c t) cover

end Cert.KernelIdeal.Region0

end
-- ==== Proof.Region1.lean ====
/-
  The second pallas_call, as two functions of the arrays it finds.

  At block `t` (rows `5000 t … 5000 t + 4999`) the body scales each accumulated row by the per-node column's entry,
  adds the bias row and clamps below at zero — the first output —, then multiplies that block by the whole 128 × 128
  weight matrix and scales each product row by the same column entry — the second output.  The blocks tile the rows, so at
  `(r, f)` the first array holds  max( d[r,0] · a[r,f] + b[f], 0 )  and the second
      ( Σ_{k < 128} max( d[r,0] · a[r,k] + b[k], 0 ) · w[k, f] ) · d[r, 0].
-/
import proofs.«134318_j91207925498527_2_alg».proof.Proof.Gen.KernelIdeal.Frame
import proofs.«134318_j91207925498527_2_alg».proof.Proof.LibMatmulNN
import proofs.«134318_j91207925498527_2_alg».proof.Proof.LibColumnLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.ValueIdx Idealize.ShloMosaic.TcCoe Idealize.SL.Sem
open Idealize.ShloMosaic.Pipeline (Dat Cfg Window)

/-- The first output: scale, add the bias, clamp below at the zero word's value. -/
def activated (a : S100000x128.Idx → EReal) (d : S100000x1.Idx → EReal) (b : S128.Idx → EReal) : S100000x128.Idx → EReal :=
  fun i => max (d (ix2 (i 0) (0 : Fin 1)) * a i + b (ix1 (i 1))) (Ideal.ofBits .f32 0x00000000#32)

/-- The second output: the first output times the weight matrix, each row scaled again. -/
def scaledNext (a : S100000x128.Idx → EReal) (d : S100000x1.Idx → EReal) (b : S128.Idx → EReal) (w : S128x128.Idx → EReal) :
    S100000x128.Idx → EReal :=
  fun i => (∑ k : Fin 128, activated a d b (ix2 (i 0) k) * w (ix2 k (i 1))) * d (ix2 (i 0) (0 : Fin 1))

theorem hz : (![0, 0] : Fin 2 → Nat) = fun _ => 0 := funext fun a => by fin_cases a <;> rfl
theorem hz1 : (![0] : Fin 1 → Nat) = fun _ => 0 := funext fun a => by fin_cases a; rfl

/-- The first stored value read at row `p`, column `q` of the block. -/
theorem pay2_apply (x0 : Vec Ideal S5000x128 .f32) (x2 : Vec Ideal S5000x1 .f32) (x4 : Vec Ideal S128 .f32)
    (p : Fin 5000) (q : Fin 128) :
    k1_pay2 (F := Ideal) x0 x2 x4 (ix2 p q)
      = max (x2 (ix2 p (0 : Fin 1)) * x0 (ix2 p q) + x4 (ix1 q)) (Ideal.ofBits .f32 0x00000000#32) := by
  unfold k1_pay2 k1_pay1
  show max ((broadcastTo S5000x128 (shapeCast S5000x1 x2 shapeCasts_S5000x1_S5000x1) broadcasts_S5000x1_S5000x128) (ix2 p q)
        * (shapeCast S5000x128 x0 shapeCasts_S5000x128_S5000x128) (ix2 p q)
      + (broadcastTo S5000x128 (shapeCast S1x128 x4 shapeCasts_S128_S1x128) broadcasts_S1x128_S5000x128) (ix2 p q))
      (Ideal.ofBits .f32 0x00000000#32) = _
  rw [shapeCast_self, shapeCast_self, Cert.LibColumnLayout.broadcastTo_a1_ab_apply, broadcastTo_1b_ab_apply,
    shapeCast_a_1a_apply]

/-- The second stored value read at row `p`, column `q` of the block. -/
theorem pay3_apply (x0 : Vec Ideal S5000x128 .f32) (x2 : Vec Ideal S5000x1 .f32) (x4 : Vec Ideal S128 .f32)
    (x14 : Vec Ideal S128x128 .f32) (p : Fin 5000) (q : Fin 128) :
    k1_pay3 (F := Ideal) x0 x2 x4 x14 (ix2 p q)
      = (∑ k : Fin 128, max (x2 (ix2 p (0 : Fin 1)) * x0 (ix2 p k) + x4 (ix1 k)) (Ideal.ofBits .f32 0x00000000#32) * x14 (ix2 k q))
        * x2 (ix2 p (0 : Fin 1)) := by
  unfold k1_pay3
  show (matmul dot_S5000x128_S128x128_S5000x128_1_0_0_1_n_n none (truncf .bf16 (k1_pay2 x0 x2 x4) bitsLt_bf16_f32)
        (truncf .bf16 x14 bitsLt_bf16_f32) (constant S5000x128 .f32 0x00000000#32)) (ix2 p q)
      * (broadcastTo S5000x128 (k1_pay1 x2) broadcasts_S5000x1_S5000x128) (ix2 p q) = _
  unfold k1_pay1
  rw [shapeCast_self, Cert.LibColumnLayout.broadcastTo_a1_ab_apply]
  refine congrArg (· * x2 (ix2 p (0 : Fin 1))) ?_
  refine (Cert.LibMatmulNN.matmul_zero_apply dot_S5000x128_S128x128_S5000x128_1_0_0_1_n_n rfl none _ _ p q).trans ?_
  refine Finset.sum_congr rfl fun k _ => ?_
  show k1_pay2 x0 x2 x4 (ix2 p k) * x14 (ix2 k q) = _
  rw [pay2_apply]

/-- The index maps over the grid: the accumulated rows, the column and both results move together, block `t` at point
    `t`; the bias and the weight matrix are one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back to the first output is block `t` of `activated` of the arrays the call finds. -/
theorem flushed4_eq (c : Dev nD) (t : Fin cfg1.N) :
    (dat1 (F := Ideal) V c).flushed 4 t = ((cfg1.win 4).blk t).view.read (Elt Ideal)
      (activated (V c main_v29) (V c main_v17) (V c main_arg3)) := by
  show (cfg1.win 4).cut (grid1.coords t) ((dat1 V c).after 4 t) = _
  rw [after1_4]
  unfold out1_4
  rw [View.canon_unit_zero hz]
  simp only [View.ld_unit_zero (S := S5000x128) hz, View.ld_unit_zero (S := S5000x1) hz, View.ld_unit_zero (S := S128) hz1]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  show k1_pay2 (iblk1 V c 0 t) (iblk1 V c 1 t) (iblk1 V c 2 t) (ix2 p q)
    = activated (V c main_v29) (V c main_v17) (V c main_arg3) (((cfg1.win 4).blk t).view.emb (ix2 p q))
  rw [pay2_apply]
  have h0 : iblk1 V c 0 t (ix2 p q) = V c main_v29 (((cfg1.win 4).blk t).view.emb (ix2 p q)) := by
    show V c main_v29 (((cfg1.win 0).blk t).view.emb (ix2 p q)) = _
    refine congrArg (V c main_v29) (funext fun a => Fin.ext ?_)
    match a with
    | ⟨0, _⟩ => show win1_0.index t (0 : Fin 2) * 5000 + 1 * p.val = win1_4.index t (0 : Fin 2) * 5000 + 1 * p.val; omega
    | ⟨1, _⟩ => show win1_0.index t (1 : Fin 2) * 128 + 1 * q.val = win1_4.index t (1 : Fin 2) * 128 + 1 * q.val; omega
  have h1 : iblk1 V c 1 t (ix2 p (0 : Fin 1)) = V c main_v17 (ix2 ((((cfg1.win 4).blk t).view.emb (ix2 p q)) 0) (0 : Fin 1)) := by
    show V c main_v17 (((cfg1.win 1).blk t).view.emb (ix2 p (0 : Fin 1))) = _
    refine congrArg (V c main_v17) (funext fun a => Fin.ext ?_)
    match a with
    | ⟨0, _⟩ => show win1_1.index t (0 : Fin 2) * 5000 + 1 * p.val = win1_4.index t (0 : Fin 2) * 5000 + 1 * p.val; omega
    | ⟨1, _⟩ => show win1_1.index t (1 : Fin 2) * 1 + 1 * 0 = 0; omega
  have h2 : iblk1 V c 2 t (ix1 q) = V c main_arg3 (ix1 ((((cfg1.win 4).blk t).view.emb (ix2 p q)) 1)) := by
    show V c main_arg3 (((cfg1.win 2).blk t).view.emb (ix1 q)) = _
    refine congrArg (V c main_arg3) (funext fun a => Fin.ext ?_)
    match a with
    | ⟨0, _⟩ => show win1_2.index t (0 : Fin 1) * 128 + 1 * q.val = win1_4.index t (1 : Fin 2) * 128 + 1 * q.val; omega
  rw [h0, h1, h2]
  rfl

/-- What point `t` writes back to the second output is block `t` of `scaledNext` of the arrays the call finds. -/
theorem flushed5_eq (c : Dev nD) (t : Fin cfg1.N) :
    (dat1 (F := Ideal) V c).flushed 5 t = ((cfg1.win 5).blk t).view.read (Elt Ideal)
      (scaledNext (V c main_v29) (V c main_v17) (V c main_arg3) (V c main_arg4)) := by
  show (cfg1.win 5).cut (grid1.coords t) ((dat1 V c).after 5 t) = _
  rw [after1_5]
  unfold out1_5
  rw [View.canon_unit_zero hz]
  simp only [View.ld_unit_zero (S := S5000x128) hz, View.ld_unit_zero (S := S5000x1) hz, View.ld_unit_zero (S := S128) hz1,
    View.ld_unit_zero (S := S128x128) hz]
  obtain ⟨e0, e1, e2, e3, e4, e5, e6, e7, e8, e9, e10⟩ := idx_facts t
  funext j
  obtain ⟨p, q, rfl⟩ : ∃ (p : Fin 5000) (q : Fin 128), j = ix2 p q := ⟨j 0, j 1, eq_ix2 j⟩
  show k1_pay3 (iblk1 V c 0 t) (iblk1 V c 1 t) (iblk1 V c 2 t) (iblk1 V c 3 t) (ix2 p q)
    = scaledNext (V c main_v29) (V c main_v17) (V c main_arg3) (V c main_arg4) (((cfg1.win 5).blk t).view.emb (ix2 p q))
  rw [pay3_apply]
  have h0 : ∀ k : Fin 128, iblk1 V c 0 t (ix2 p k) = V c main_v29 (ix2 ((((cfg1.win 5).blk t).view.emb (ix2 p q)) 0) k) := by
    intro k
    show V c main_v29 (((cfg1.win 0).blk t).view.emb (ix2 p k)) = _
    refine congrArg (V c main_v29) (funext fun a => Fin.ext ?_)
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have h1 : iblk1 V c 1 t (ix2 p (0 : Fin 1)) = V c main_v17 (ix2 ((((cfg1.win 5).blk t).view.emb (ix2 p q)) 0) (0 : Fin 1)) := by
    show V c main_v17 (((cfg1.win 1).blk t).view.emb (ix2 p (0 : Fin 1))) = _
    refine congrArg (V c main_v17) (funext fun a => Fin.ext ?_)
    match a with
    | ⟨0, _⟩ => show win1_1.index t (0 : Fin 2) * 5000 + 1 * p.val = win1_5.index t (0 : Fin 2) * 5000 + 1 * p.val; omega
    | ⟨1, _⟩ => show win1_1.index t (1 : Fin 2) * 1 + 1 * 0 = 0; omega
  have h2 : ∀ k : Fin 128, iblk1 V c 2 t (ix1 k) = V c main_arg3 (ix1 k) := by
    intro k
    show V c main_arg3 (((cfg1.win 2).blk t).view.emb (ix1 k)) = _
    refine congrArg (V c main_arg3) (funext fun a => Fin.ext ?_)
    match a with
    | ⟨0, _⟩ => show win1_2.index t (0 : Fin 1) * 128 + 1 * k.val = k.val; omega
  have h3 : ∀ k : Fin 128, iblk1 V c 3 t (ix2 k q) = V c main_arg4 (ix2 k ((((cfg1.win 5).blk t).view.emb (ix2 p q)) 1)) := by
    intro k
    show V c main_arg4 (((cfg1.win 3).blk t).view.emb (ix2 k q)) = _
    refine congrArg (V c main_arg4) (funext fun a => Fin.ext ?_)
    match a with
    | ⟨0, _⟩ => show win1_3.index t (0 : Fin 2) * 128 + 1 * k.val = k.val; omega
    | ⟨1, _⟩ => show win1_3.index t (1 : Fin 2) * 128 + 1 * q.val = win1_5.index t (1 : Fin 2) * 128 + 1 * q.val; omega
  rw [h1]
  unfold scaledNext activated
  refine congrArg (· * V c main_v17 (ix2 ((((cfg1.win 5).blk t).view.emb (ix2 p q)) 0) (0 : Fin 1))) ?_
  exact Finset.sum_congr rfl fun k _ => by rw [h0 k, h2 k, h3 k]

/-- An index of the array is in point `t`'s block iff each coordinate is in the block's range on its axis. -/
theorem mem_blk4 (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v30_0).slice (win1_4.rect t)).set ↔ _
  rw [View.set_slice_whole, Rect.mem_set_unit]
  exact Iff.rfl

/-- The blocks tile the array: row `r` is in the block of point `r / 5000`. -/
theorem cover4 (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_4 _, ?_⟩
  rw [mem_blk4]
  obtain ⟨-, -, -, -, -, -, -, e7, e8, -, -⟩ := idx_facts ⟨(i 0).val / 5000, ht⟩
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    rw [e7]; show (i 0).val / 5000 * 5000 ≤ (i 0).val ∧ (i 0).val < (i 0).val / 5000 * 5000 + 5000; omega
  | ⟨1, _⟩ =>
    show win1_4.index ⟨(i 0).val / 5000, ht⟩ (1 : Fin 2) * 128 ≤ (i 1).val
      ∧ (i 1).val < win1_4.index ⟨(i 0).val / 5000, ht⟩ (1 : Fin 2) * 128 + 128
    rw [e8]; omega

/-- An index of the array is in point `t`'s block iff each coordinate is in the block's range on its axis. -/
theorem mem_blk5 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v30_1).slice (win1_5.rect t)).set ↔ _
  rw [View.set_slice_whole, Rect.mem_set_unit]
  exact Iff.rfl

/-- The blocks tile the array: row `r` is in the block of point `r / 5000`. -/
theorem cover5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  rw [mem_blk5]
  obtain ⟨-, -, -, -, -, -, -, -, -, e9, e10⟩ := idx_facts ⟨(i 0).val / 5000, ht⟩
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e9]; show (i 0).val / 5000 * 5000 ≤ (i 0).val ∧ (i 0).val < (i 0).val / 5000 * 5000 + 5000; omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    rw [e10]; omega

/-- THE FIRST ARRAY the second call leaves. -/
theorem final4 (c : Dev nD) :
    (dat1 (F := Ideal) V c).arrAt 4 cfg1.N = activated (V c main_v29) (V c main_v17) (V c main_arg3) :=
  (dat1 (F := Ideal) V c).arrAt_eq_of_cover 4 _ (fun t _ => flushed4_eq V c t) cover4

/-- THE SECOND ARRAY the second call leaves. -/
theorem final5 (c : Dev nD) :
    (dat1 (F := Ideal) V c).arrAt 5 cfg1.N = scaledNext (V c main_v29) (V c main_v17) (V c main_arg3) (V c main_arg4) :=
  (dat1 (F := Ideal) V c).arrAt_eq_of_cover 5 _ (fun t _ => flushed5_eq V c t) cover5

end Cert.KernelIdeal.Region1

end
-- ==== Proof.LibRowGatherScatter.lean ====
/-
  Rows selected by a column of integer start indices: a gather of whole rows, a gather of single entries, and the
  accumulating scatter of rows, each read at an index.

  Given an array with N rows and a column `idx` of R integer words, entry `e` of the column names row
  `min (toNat (toInt idx[e])) (N - 1)` for a gather (the word read signed and clamped into the array), while a scatter
  does not clamp: update row `e` lands on row `toInt idx[e]` when that is in `[0, N)`, and is dropped otherwise.
-/
import Idealize.ShloMosaic.PureOps.Ideal.Laws
import Idealize.ShloMosaic.Lib.ValueIdx

noncomputable section

namespace Cert.LibRowGatherScatter

open Idealize.ShloMosaic Idealize.ShloMosaic.ValueIdx

variable {α : Type}

/-- The row of an N-row array that a start-index word selects in a gather: the word as a signed integer, negative values
    at 0, large ones at the last row. -/
def clampRow (N : Nat) (hN : 0 < N) {w : Nat} (b : BitVec w) : Fin N := ⟨min b.toInt.toNat (N - 1), by omega⟩

/-- The dimension numbers of a gather of whole rows: operand `[N, C]`, start indices `[R, 1]` (one row number each),
    result `[R, C]`; the row axis is collapsed, the column axis is the offset axis with the full slice. -/
abbrev rowsDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A gather of whole rows read at `(e, f)`: the operand at the clamped row named by `idx[e, 0]`, column `f`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (f : Fin C) :
    Host.gather (rowsDims N R C wf) x idx (ix2 e f) = x (ix2 (clampRow N hN (idx (ix2 e 0))) f) := by
  unfold Host.gather
  congr 1
  funext a
  refine Fin.ext ?_
  show (rowsDims N R C wf).start (ix2 e f) idx a + (rowsDims N R C wf).batchCoord (ix2 e f) a
      + (rowsDims N R C wf).offCoord (ix2 e f) a = _
  rw [GatherDims.batchCoord_eq_zero _ _ _ List.not_mem_nil]
  have h0 : (rowsDims N R C wf).start (ix2 e f) idx (0 : Fin 2) + 0 + (rowsDims N R C wf).offCoord (ix2 e f) (0 : Fin 2)
      = ((ix2 (clampRow N hN (idx (ix2 e 0))) f : (⟨2, ![N, C]⟩ : Shape).Idx) (0 : Fin 2)).val := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R C wf).startIndexMap from List.mem_singleton.mpr rfl)]
    have hsi : (rowsDims N R C wf).siIdx (ix2 e f) ⟨List.idxOf (0 : Fin 2) (rowsDims N R C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : (rowsDims N R C wf).start (ix2 e f) idx (1 : Fin 2) + 0 + (rowsDims N R C wf).offCoord (ix2 e f) (1 : Fin 2)
      = ((ix2 (clampRow N hN (idx (ix2 e 0))) f : (⟨2, ![N, C]⟩ : Shape).Idx) (1 : Fin 2)).val := by
    have hn : (1 : Fin 2) ∉ (rowsDims N R C wf).startIndexMap :=
      fun h => absurd (congrArg Fin.val (List.mem_singleton.mp h)) Nat.one_ne_zero
    unfold GatherDims.start
    rw [dif_neg hn]
    unfold GatherDims.offCoord
    rw [dif_pos (show (1 : Fin 2) ∈ (rowsDims N R C wf).sKept from (GatherDims.mem_sKept _ _).mpr
      ⟨fun h => absurd (congrArg Fin.val (List.mem_singleton.mp h)) Nat.one_ne_zero, List.not_mem_nil⟩)]
    simp only [Nat.zero_add]
    rfl
  match a with
  | ⟨0, _⟩ => exact h0
  | ⟨1, _⟩ => exact h1

/-- The dimension numbers of a gather of single entries: operand `[N]`, start indices `[R, 1]`, result `[R]`. -/
abbrev eltsDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- A gather of single entries read at `e`: the operand at the clamped row named by `idx[e, 0]`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (eltsDims N R wf) x idx (ix1 e) = x (ix1 (clampRow N hN (idx (ix2 e 0)))) := by
  unfold Host.gather
  congr 1
  funext a
  obtain rfl : a = 0 := Subsingleton.elim _ _
  refine Fin.ext ?_
  show (eltsDims N R wf).start (ix1 e) idx 0 + (eltsDims N R wf).batchCoord (ix1 e) 0 + (eltsDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltsDims N R wf).startIndexMap from List.mem_singleton.mpr rfl)]
  have hsi : (eltsDims N R wf).siIdx (ix1 e) ⟨List.idxOf (0 : Fin 1) (eltsDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- The dimension numbers of a scatter of whole rows: operand `[N, C]`, scatter indices `[R, 1]`, updates `[R, C]`. -/
abbrev rowsScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Where a scatter of whole rows puts update entry `(e, f)`: if it lands on the operand's index `i`, then the word
    `idx[e, 0]`, read signed, IS `i`'s row number (it is not clamped: it lies in `[0, N)`). -/
theorem scatter_rows_row {N R C w : Nat}
    (wf : ScatterDims.WF ⟨2, ![N, C]⟩ ⟨2, ![R, 1]⟩ ⟨2, ![R, C]⟩ [1] [0] [0] 1)
    (idx : IVec ⟨2, ![R, 1]⟩ w) (e : Fin R) (f : Fin C) (i : (⟨2, ![N, C]⟩ : Shape).Idx)
    (h : (rowsScatter N R C wf).resultIdx? (ix2 e f) idx = some i) :
    (idx (ix2 e 0)).toInt = ((i 0).val : Int) := by
  unfold ScatterDims.resultIdx? at h
  split at h
  · rename_i hall
    have hi := Option.some.inj h
    have h0 : ((rowsScatter N R C wf).start (ix2 e f) idx (0 : Fin 2) + ((rowsScatter N R C wf).window (ix2 e f) (0 : Fin 2) : Int)).toNat
        = (i 0).val := congrArg (fun g => (g (0 : Fin 2)).val) hi
    have hs : (rowsScatter N R C wf).start (ix2 e f) idx (0 : Fin 2) = (idx (ix2 e 0)).toInt := by
      unfold ScatterDims.start
      rw [dif_pos (show (0 : Fin 2) ∈ (rowsScatter N R C wf).scatterDimsToOperandDims from List.mem_singleton.mpr rfl)]
      have hsi : (rowsScatter N R C wf).siIdx (ix2 e f) ⟨List.idxOf (0 : Fin 2) (rowsScatter N R C wf).scatterDimsToOperandDims,
          List.idxOf_lt_length_iff.2 (List.mem_singleton.mpr rfl)⟩ = ix2 e 0 := by
        funext b; refine Fin.ext ?_
        match b with
        | ⟨0, _⟩ => rfl
        | ⟨1, _⟩ => rfl
      rw [hsi]
    have hw : (rowsScatter N R C wf).window (ix2 e f) (0 : Fin 2) = 0 := by
      unfold ScatterDims.window
      rw [dif_neg]
      simp [ScatterDims.sKept, Shape.kept]
    have hge := (hall (0 : Fin 2)).1
    rw [hs, hw] at h0 hge
    simp only [Nat.cast_zero, add_zero] at h0 hge
    omega
  · exact absurd h (by simp)

end Cert.LibRowGatherScatter

end
-- ==== Proof.GcnAlgebra.lean ====
/-
  The algebra of one graph-convolution layer with the symmetric normalisation factored onto the nodes.

  Write, for a row `d` and a feature `f`,  S(d, f)  for the set of update entries (edges with their feature coordinate)
  that the accumulating scatter puts on `(d, f)`.  With `r(e)` the clamped source row of edge `e` and `δ` the
  per-node scale,
      δ[d] · Σ_{(e,f) ∈ S(d,f)} ( h[r(e), f] · δ[r(e)] )   =   Σ_{(e,f) ∈ S(d,f)} h[r(e), f] · ( δ[r(e)] · δ[dst(e)] )
  because every edge in `S(d, f)` has destination row `d` (so `δ[dst(e)] = δ[d]`), and because multiplication by a
  factor that is a nonnegative real distributes over a finite sum of extended reals (it does not for a general
  extended real: ∞ and −∞ may meet).  The scale is such a factor: it is either 0 or the reciprocal square root of a
  number that is at least 1.
-/
import proofs.«134318_j91207925498527_2_alg».proof.Proof.LibRowGatherScatter

noncomputable section

namespace Cert.GcnAlgebra

open Idealize.ShloMosaic Idealize.ShloMosaic.ValueIdx Cert.LibRowGatherScatter

/-- Multiplication by a nonnegative extended real other than ∞ distributes over a finite sum. -/
theorem mul_sum_of_nonneg_ne_top {ι : Type} (s : Finset ι) (a : EReal) (h0 : 0 ≤ a) (ht : a ≠ ⊤) (f : ι → EReal) :
    a * ∑ j ∈ s, f j = ∑ j ∈ s, a * f j := by
  classical
  induction s using Finset.induction_on with
  | empty => simp
  | insert j s hj ih =>
    rw [Finset.sum_insert hj, Finset.sum_insert hj, EReal.left_distrib_of_nonneg_of_ne_top h0 ht, ih]

/-- The reciprocal square root of `max x r`, for a positive real `r`, is a nonnegative real number whatever `x` is:
    the maximum is either ∞ (reciprocal root 0) or a positive real. -/
theorem rsqrt_max_nonneg (x : EReal) (r : ℝ) (hr : 0 < r) :
    0 ≤ Ideal.rsqrt (max x (r : EReal)) ∧ Ideal.rsqrt (max x (r : EReal)) ≠ ⊤ := by
  have hle : (r : EReal) ≤ max x (r : EReal) := le_max_right _ _
  generalize max x (r : EReal) = y at hle ⊢
  induction y using EReal.rec with
  | bot => exact absurd hle (by simp)
  | top => exact ⟨show (0 : EReal) ≤ 0 from le_refl _, show (0 : EReal) ≠ ⊤ from EReal.zero_ne_top⟩
  | coe y =>
    have hy : 0 < y := lt_of_lt_of_le hr (EReal.coe_le_coe_iff.mp hle)
    show 0 ≤ (if y < 0 then (⊥ : EReal) else if y = 0 then ⊤ else (((Real.sqrt y)⁻¹ : ℝ) : EReal))
      ∧ (if y < 0 then (⊥ : EReal) else if y = 0 then ⊤ else (((Real.sqrt y)⁻¹ : ℝ) : EReal)) ≠ ⊤
    rw [if_neg (not_lt.mpr hy.le), if_neg hy.ne']
    exact ⟨EReal.coe_nonneg.mpr (inv_nonneg.mpr (Real.sqrt_nonneg y)), EReal.coe_ne_top _⟩

/-- The f32 word of the number one is the real number 1. -/
theorem ofBits_one_f32 : Ideal.ofBits .f32 0x3F800000#32 = ((1 : ℝ) : EReal) := by
  simp [Ideal.ofBits, Ideal.ieee]
  norm_cast
  norm_num

/-- The log-softmax of row `r` of an `[R, 41]` array at column `n`: the entry less the row's maximum (a fold of `max`
    from the starting value `ninf`), less the logarithm of the sum of the exponentials of the row so shifted. -/
def logSoftmaxAt {R : Nat} (L : (⟨2, ![R, 41]⟩ : Shape).Idx → EReal) (ninf : EReal) (r : Fin R) (n : Fin 41) : EReal :=
  (L (ix2 r n) - (Finset.univ : Finset (Fin 41)).fold max ninf (fun k => L (ix2 r k)))
    - Ideal.log (∑ k : Fin 41, Ideal.exp (L (ix2 r k) - (Finset.univ : Finset (Fin 41)).fold max ninf (fun k' => L (ix2 r k'))))

/-- It depends on the row only: two arrays with the same row give the same value. -/
theorem logSoftmaxAt_congr {R R' : Nat} (L : (⟨2, ![R, 41]⟩ : Shape).Idx → EReal) (L' : (⟨2, ![R', 41]⟩ : Shape).Idx → EReal)
    (ninf : EReal) (r : Fin R) (r' : Fin R') (n : Fin 41) (h : ∀ k : Fin 41, L (ix2 r k) = L' (ix2 r' k)) :
    logSoftmaxAt L ninf r n = logSoftmaxAt L' ninf r' n := by
  unfold logSoftmaxAt
  have hf : (fun k => L (ix2 r k)) = (fun k => L' (ix2 r' k)) := funext h
  have hs : ∀ M : EReal, (∑ k : Fin 41, Ideal.exp (L (ix2 r k) - M)) = ∑ k : Fin 41, Ideal.exp (L' (ix2 r' k) - M) :=
    fun M => Finset.sum_congr rfl fun k _ => by rw [h k]
  rw [hf, h n, hs]

/-- The maximum of the starting value and a fold of `max` from it is the fold. -/
theorem max_fold_max_self {ι : Type} (s : Finset ι) (b : EReal) (f : ι → EReal) : max b (s.fold max b f) = s.fold max b f :=
  max_eq_right ((Finset.le_fold_max (c := b)).mpr (Or.inl le_rfl))

section Conv

variable {N R C : Nat}
  (gwf2 : GatherDims.WF ⟨2, ![N, C]⟩ ⟨2, ![R, 1]⟩ ⟨2, ![R, C]⟩ [1] [0] [] [0] [] 1 ![1, C])
  (gwf1 : GatherDims.WF ⟨1, ![N]⟩ ⟨2, ![R, 1]⟩ ⟨1, ![R]⟩ [] [0] [] [0] [] 1 ![1])
  (swf : ScatterDims.WF ⟨2, ![N, C]⟩ ⟨2, ![R, 1]⟩ ⟨2, ![R, C]⟩ [1] [0] [0] 1)

/-- THE LAYER IDENTITY.  Scaling the rows before the gather by `δ` and the accumulated rows after the scatter by `δ`
    again gives the same array as scaling every gathered edge row by `δ[src] · δ[dst]` before the scatter, when `δ` is
    everywhere a nonnegative real and the destination used for the edge weight agrees with the scatter's destination
    wherever the latter is not negative. -/
theorem conv_eq (hN : 0 < N) (h : (⟨2, ![N, C]⟩ : Shape).Idx → EReal) (δ : (⟨1, ![N]⟩ : Shape).Idx → EReal)
    (hδ : ∀ n, 0 ≤ δ n ∧ δ n ≠ ⊤)
    (srcb dstb dstwb : IVec ⟨2, ![R, 1]⟩ 32)
    (hw : ∀ e : Fin R, 0 ≤ (dstb (ix2 e 0)).toInt → dstwb (ix2 e 0) = dstb (ix2 e 0))
    (z : (⟨2, ![N, C]⟩ : Shape).Idx → EReal) (hz : ∀ i, z i = 0)
    (i : (⟨2, ![N, C]⟩ : Shape).Idx) :
    δ (ix1 (i 0)) * Ideal.hostScatterAdd (rowsScatter N R C swf) z dstb
        (fun j => Host.gather (rowsDims N R C gwf2) (fun p => h p * δ (ix1 (p 0))) srcb j) i
    = Ideal.hostScatterAdd (rowsScatter N R C swf) z dstb
        (fun j => Host.gather (rowsDims N R C gwf2) h srcb j *
          (Host.gather (eltsDims N R gwf1) δ srcb (ix1 (j 0)) * Host.gather (eltsDims N R gwf1) δ dstwb (ix1 (j 0)))) i := by
  unfold Ideal.hostScatterAdd
  rw [hz i, zero_add, zero_add, mul_sum_of_nonneg_ne_top _ _ (hδ _).1 (hδ _).2]
  refine Finset.sum_congr rfl fun j hj => ?_
  have hj' := (Finset.mem_filter.mp hj).2
  obtain ⟨e, f, rfl⟩ : ∃ (e : Fin R) (f : Fin C), j = ix2 e f := ⟨j 0, j 1, eq_ix2 j⟩
  have hrow := scatter_rows_row swf dstb e f i hj'
  have hd : clampRow N hN (dstwb (ix2 e 0)) = i 0 := by
    rw [hw e (by omega)]
    apply Fin.ext
    show min (dstb (ix2 e 0)).toInt.toNat (N - 1) = (i 0).val
    have hi : (i 0).val < N := (i 0).isLt
    omega
  show δ (ix1 (i 0)) * Host.gather (rowsDims N R C gwf2) (fun p => h p * δ (ix1 (p 0))) srcb (ix2 e f)
      = Host.gather (rowsDims N R C gwf2) h srcb (ix2 e f) *
        (Host.gather (eltsDims N R gwf1) δ srcb (ix1 e) * Host.gather (eltsDims N R gwf1) δ dstwb (ix1 e))
  rw [gather_rows_apply hN, gather_rows_apply hN, gather_elts_apply hN, gather_elts_apply hN, hd]
  show δ (ix1 (i 0)) * (h (ix2 (clampRow N hN (srcb (ix2 e 0))) f) * δ (ix1 (clampRow N hN (srcb (ix2 e 0)))))
      = h (ix2 (clampRow N hN (srcb (ix2 e 0))) f) * (δ (ix1 (clampRow N hN (srcb (ix2 e 0)))) * δ (ix1 (i 0)))
  rw [mul_comm, mul_assoc]

end Conv

end Cert.GcnAlgebra

end
-- ==== Proof.Region2.lean ====
/-
  The third pallas_call, as one function of the arrays it finds.

  At block `t` (rows `5000 t … 5000 t + 4999`) the body forms the second layer's activation
  `max( d[r,0] · a[r,k] + b[k], 0 )`, adds the first layer's activation, multiplies by the 128 × 41 head matrix, adds
  the head bias, and takes the log-softmax of each row of 41 logits: the entry less the row maximum, less the logarithm of
  the sum of the exponentials of the shifted row.  The blocks tile the rows, and a row's log-softmax depends on that row
  only, so the array the call leaves is the row-wise log-softmax of the whole array of logits.
-/
import proofs.«134318_j91207925498527_2_alg».proof.Proof.Gen.KernelIdeal.Frame
import proofs.«134318_j91207925498527_2_alg».proof.Proof.LibMatmulNN
import proofs.«134318_j91207925498527_2_alg».proof.Proof.LibColumnLayout
import proofs.«134318_j91207925498527_2_alg».proof.Proof.GcnAlgebra
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.ValueIdx Idealize.ShloMosaic.TcCoe Idealize.SL.Sem
open Idealize.ShloMosaic.Pipeline (Dat Cfg Window)
open Cert.GcnAlgebra (logSoftmaxAt logSoftmaxAt_congr)

/-- The sum of the two layers' activations. -/
def combined (x1 a : S100000x128.Idx → EReal) (d : S100000x1.Idx → EReal) (b : S128.Idx → EReal) : S100000x128.Idx → EReal :=
  fun i => x1 i + max (d (ix2 (i 0) (0 : Fin 1)) * a i + b (ix1 (i 1))) (Ideal.ofBits .f32 0x00000000#32)

/-- The logits: the combined activations times the head matrix, plus the head bias. -/
def logits (x1 a : S100000x128.Idx → EReal) (d : S100000x1.Idx → EReal) (b : S128.Idx → EReal)
    (lw : S128x41.Idx → EReal) (lb : S41.Idx → EReal) : S100000x41.Idx → EReal :=
  fun i => (∑ k : Fin 128, combined x1 a d b (ix2 (i 0) k) * lw (ix2 k (i 1))) + lb (ix1 (i 1))

/-- The array the call leaves: the log-softmax of each row of the logits. -/
def result (x1 a : S100000x128.Idx → EReal) (d : S100000x1.Idx → EReal) (b : S128.Idx → EReal)
    (lw : S128x41.Idx → EReal) (lb : S41.Idx → EReal) : S100000x41.Idx → EReal :=
  fun i => logSoftmaxAt (logits x1 a d b lw lb) (Ideal.ofBits .f32 0xFF800000#32) (i 0) (i 1)

theorem hz : (![0, 0] : Fin 2 → Nat) = fun _ => 0 := funext fun a => by fin_cases a <;> rfl
theorem hz1 : (![0] : Fin 1 → Nat) = fun _ => 0 := funext fun a => by fin_cases a; rfl

/-- The block's logits, from the loaded blocks. -/
def blockLogits (x0 x2 : Vec Ideal S5000x128 .f32) (x4 : Vec Ideal S5000x1 .f32) (x6 : Vec Ideal S128 .f32)
    (x16 : Vec Ideal S128x41 .f32) (x19 : Vec Ideal S41 .f32) : S5000x41.Idx → EReal :=
  fun j => (∑ k : Fin 128, (x0 (ix2 (j 0) k) + max (x4 (ix2 (j 0) (0 : Fin 1)) * x2 (ix2 (j 0) k) + x6 (ix1 k)) (Ideal.ofBits .f32 0x00000000#32))
      * x16 (ix2 k (j 1))) + x19 (ix1 (j 1))

/-- The inserted index of the row reduction: row `p`, column `k`. -/
theorem lift_eq (p : Fin 5000) (k : Fin 41) : reduces_S5000x41_S5000.lift (ix1 p) k = ix2 p k := by
  funext a; refine Fin.ext ?_
  match a with
  | ⟨0, _⟩ => rfl
  | ⟨1, _⟩ => rfl

/-- The row maximum of a `[5000, 41]` block, spread back over the row, read at any column of row `p`: the fold of `max`
    over the row's 41 entries from the starting value. -/
theorem rowMax_apply (Lg : FVec Ideal S5000x41 .f32) (hφ : FKind.Formats .f32)
    (h1 : (0xFF800000#32 : BitVec 32) = FKind.maximumf.neutral .f32 hφ) (p : Fin 5000) (k : Fin 41) :
    (broadcastTo S5000x41 (shapeCast S5000x1 (multiReduction .maximumf [1] S5000 Lg 0xFF800000#32 reduces_S5000x41_S5000 hφ h1) shapeCasts_S5000_S5000x1) broadcasts_S5000x1_S5000x41) (ix2 p k)
      = (Finset.univ : Finset (Fin 41)).fold max (Ideal.ofBits .f32 0xFF800000#32) (fun k' => Lg (ix2 p k')) := by
  have hfun : (Lg ∘ reduces_S5000x41_S5000.lift (ix1 p)) = fun k' : Fin 41 => Lg (ix2 p k') :=
    funext fun k' => congrArg Lg (lift_eq p k')
  rw [Cert.LibColumnLayout.broadcastTo_a1_ab_apply, Cert.LibColumnLayout.shapeCast_a_a1_apply,
    Ideal.multiReduction_maximumf_single, hfun]
  rfl

/-- The two row reductions and the two subtractions of the body, over ANY block of logits `Lg`, read at `(p, n)`: the
    log-softmax of row `p` at column `n`. -/
theorem rowLogSoftmax_apply (Lg : FVec Ideal S5000x41 .f32) (hφ : FKind.Formats .f32)
    (h1 : (0xFF800000#32 : BitVec 32) = FKind.maximumf.neutral .f32 hφ)
    (h2 : (0x00000000#32 : BitVec 32) = FKind.add.neutral .f32 hφ) (p : Fin 5000) (n : Fin 41) :
    subf (subf Lg (broadcastTo S5000x41 (shapeCast S5000x1 (multiReduction .maximumf [1] S5000 Lg 0xFF800000#32 reduces_S5000x41_S5000 hφ h1) shapeCasts_S5000_S5000x1) broadcasts_S5000x1_S5000x41))
        (broadcastTo S5000x41 (log (shapeCast S5000x1 (multiReduction .add [1] S5000 (exp (subf Lg (broadcastTo S5000x41 (shapeCast S5000x1 (multiReduction .maximumf [1] S5000 Lg 0xFF800000#32 reduces_S5000x41_S5000 hφ h1) shapeCasts_S5000_S5000x1) broadcasts_S5000x1_S5000x41)))
          0x00000000#32 reduces_S5000x41_S5000 hφ h2) shapeCasts_S5000_S5000x1)) broadcasts_S5000x1_S5000x41) (ix2 p n)
      = logSoftmaxAt Lg (Ideal.ofBits .f32 0xFF800000#32) p n := by
  show (Lg (ix2 p n) - (broadcastTo S5000x41 (shapeCast S5000x1 (multiReduction .maximumf [1] S5000 Lg 0xFF800000#32 reduces_S5000x41_S5000 hφ h1) shapeCasts_S5000_S5000x1) broadcasts_S5000x1_S5000x41) (ix2 p n))
      - (broadcastTo S5000x41 (log (shapeCast S5000x1 (multiReduction .add [1] S5000 (exp (subf Lg (broadcastTo S5000x41 (shapeCast S5000x1 (multiReduction .maximumf [1] S5000 Lg 0xFF800000#32 reduces_S5000x41_S5000 hφ h1) shapeCasts_S5000_S5000x1) broadcasts_S5000x1_S5000x41)))
          0x00000000#32 reduces_S5000x41_S5000 hφ h2) shapeCasts_S5000_S5000x1)) broadcasts_S5000x1_S5000x41) (ix2 p n) = _
  rw [rowMax_apply Lg hφ h1 p n, Cert.LibColumnLayout.broadcastTo_a1_ab_apply]
  show _ - Ideal.log ((shapeCast S5000x1 (multiReduction .add [1] S5000 (exp (subf Lg (broadcastTo S5000x41 (shapeCast S5000x1 (multiReduction .maximumf [1] S5000 Lg 0xFF800000#32 reduces_S5000x41_S5000 hφ h1) shapeCasts_S5000_S5000x1) broadcasts_S5000x1_S5000x41)))
          0x00000000#32 reduces_S5000x41_S5000 hφ h2) shapeCasts_S5000_S5000x1) (ix2 p (0 : Fin 1))) = _
  rw [Cert.LibColumnLayout.shapeCast_a_a1_apply, Ideal.multiReduction_add_single]
  unfold logSoftmaxAt
  have hS : (∑ k : Fin (S5000x41.size (1 : Fin 2)), (exp (subf Lg (broadcastTo S5000x41 (shapeCast S5000x1 (multiReduction .maximumf [1] S5000 Lg 0xFF800000#32 reduces_S5000x41_S5000 hφ h1) shapeCasts_S5000_S5000x1) broadcasts_S5000x1_S5000x41))) (reduces_S5000x41_S5000.lift (ix1 p) k))
      = ∑ k : Fin 41, Ideal.exp (Lg (ix2 p k) - ((Finset.univ : Finset (Fin 41)).fold max (Ideal.ofBits .f32 0xFF800000#32) (fun k' => Lg (ix2 p k')))) := by
    refine Finset.sum_congr rfl fun k _ => ?_
    rw [lift_eq p k]
    show Ideal.exp (Lg (ix2 p k) - (broadcastTo S5000x41 (shapeCast S5000x1 (multiReduction .maximumf [1] S5000 Lg 0xFF800000#32 reduces_S5000x41_S5000 hφ h1) shapeCasts_S5000_S5000x1) broadcasts_S5000x1_S5000x41) (ix2 p k)) = _
    rw [rowMax_apply Lg hφ h1 p k]
  exact congrArg (fun s => (Lg (ix2 p n) - ((Finset.univ : Finset (Fin 41)).fold max (Ideal.ofBits .f32 0xFF800000#32) (fun k' => Lg (ix2 p k')))) - Ideal.log s) hS

/-- What the body stores, read at row `p`, column `n` of the block: the log-softmax of row `p` of the block's logits. -/
theorem pay_apply (x0 x2 : Vec Ideal S5000x128 .f32) (x4 : Vec Ideal S5000x1 .f32) (x6 : Vec Ideal S128 .f32)
    (x16 : Vec Ideal S128x41 .f32) (x19 : Vec Ideal S41 .f32) (p : Fin 5000) (n : Fin 41) :
    k2_pay1 (F := Ideal) x0 x2 x4 x6 x16 x19 (ix2 p n)
      = logSoftmaxAt (blockLogits x0 x2 x4 x6 x16 x19) (Ideal.ofBits .f32 0xFF800000#32) p n := by
  unfold k2_pay1
  refine (rowLogSoftmax_apply _ _ _ _ p n).trans ?_
  refine logSoftmaxAt_congr _ _ _ p p n fun k => ?_
  show (matmul (F := Ideal) dot_S5000x128_S128x41_S5000x41_1_0_0_1_n_n none
        (truncf .bf16 (addf (shapeCast S5000x128 x0 shapeCasts_S5000x128_S5000x128)
          (maximumf (addf (mulf (broadcastTo S5000x128 (shapeCast S5000x1 x4 shapeCasts_S5000x1_S5000x1) broadcasts_S5000x1_S5000x128)
              (shapeCast S5000x128 x2 shapeCasts_S5000x128_S5000x128))
            (broadcastTo S5000x128 (shapeCast S1x128 x6 shapeCasts_S128_S1x128) broadcasts_S1x128_S5000x128))
            (broadcast S5000x128 (FloatOps.ofBits .f32 0x00000000#32)))) bitsLt_bf16_f32)
        (truncf .bf16 x16 bitsLt_bf16_f32) (constant S5000x41 .f32 0x00000000#32)) (ix2 p k)
      + (broadcastTo S5000x41 (shapeCast S1x41 x19 shapeCasts_S41_S1x41) broadcasts_S1x41_S5000x41) (ix2 p k) = _
  rw [broadcastTo_1b_ab_apply, shapeCast_a_1a_apply]
  unfold blockLogits
  refine congrArg (· + x19 (ix1 k)) ?_
  refine (Cert.LibMatmulNN.matmul_zero_apply dot_S5000x128_S128x41_S5000x41_1_0_0_1_n_n rfl none _ _ p k).trans ?_
  refine Finset.sum_congr rfl fun j _ => ?_
  refine congrArg (· * x16 (ix2 j k)) ?_
  show (shapeCast S5000x128 x0 shapeCasts_S5000x128_S5000x128) (ix2 p j)
      + max ((broadcastTo S5000x128 (shapeCast S5000x1 x4 shapeCasts_S5000x1_S5000x1) broadcasts_S5000x1_S5000x128) (ix2 p j)
          * (shapeCast S5000x128 x2 shapeCasts_S5000x128_S5000x128) (ix2 p j)
        + (broadcastTo S5000x128 (shapeCast S1x128 x6 shapeCasts_S128_S1x128) broadcasts_S1x128_S5000x128) (ix2 p j))
        (Ideal.ofBits .f32 0x00000000#32) = _
  rw [shapeCast_self, shapeCast_self, shapeCast_self, Cert.LibColumnLayout.broadcastTo_a1_ab_apply, broadcastTo_1b_ab_apply,
    shapeCast_a_1a_apply]

/-- Row `p` of the block's logits is row `r` of the array's logits when the loaded blocks are the arrays read at that row. -/
theorem block_row_eq (x0 x2 : Vec Ideal S5000x128 .f32) (x4 : Vec Ideal S5000x1 .f32) (x6 : Vec Ideal S128 .f32)
    (x16 : Vec Ideal S128x41 .f32) (x19 : Vec Ideal S41 .f32)
    (X1 A : S100000x128.Idx → EReal) (D : S100000x1.Idx → EReal) (B : S128.Idx → EReal)
    (LW : S128x41.Idx → EReal) (LB : S41.Idx → EReal) (p : Fin 5000) (r : Fin 100000)
    (h0 : ∀ k' : Fin 128, x0 (ix2 p k') = X1 (ix2 r k')) (h1 : ∀ k' : Fin 128, x2 (ix2 p k') = A (ix2 r k'))
    (h2 : x4 (ix2 p (0 : Fin 1)) = D (ix2 r (0 : Fin 1))) (h3 : ∀ k' : Fin 128, x6 (ix1 k') = B (ix1 k'))
    (h4 : ∀ (k' : Fin 128) (k : Fin 41), x16 (ix2 k' k) = LW (ix2 k' k)) (h5 : ∀ k : Fin 41, x19 (ix1 k) = LB (ix1 k))
    (k : Fin 41) :
    blockLogits x0 x2 x4 x6 x16 x19 (ix2 p k) = logits X1 A D B LW LB (ix2 r k) := by
  unfold blockLogits logits combined
  show (∑ k' : Fin 128, (x0 (ix2 p k') + max (x4 (ix2 p (0 : Fin 1)) * x2 (ix2 p k') + x6 (ix1 k')) (Ideal.ofBits .f32 0x00000000#32))
        * x16 (ix2 k' k)) + x19 (ix1 k)
    = (∑ k' : Fin 128, (X1 (ix2 r k') + max (D (ix2 r (0 : Fin 1)) * A (ix2 r k') + B (ix1 k')) (Ideal.ofBits .f32 0x00000000#32))
        * LW (ix2 k' k)) + LB (ix1 k)
  rw [h2, h5 k]
  refine congrArg (· + LB (ix1 k)) ?_
  exact Finset.sum_congr rfl fun k' _ => by rw [h0 k', h1 k', h3 k', h4 k' k]

/-- The index maps over the grid: both activations, the column and the result move together, block `t` at point `t`;
    the bias, the head matrix and the head bias are one block each. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

/-- What point `t` writes back is block `t` of `result` of the arrays the call finds. -/
theorem flushed_eq (c : Dev nD) (t : Fin cfg2.N) :
    (dat2 (F := Ideal) V c).flushed 6 t = ((cfg2.win 6).blk t).view.read (Elt Ideal)
      (result (V c main_v30_0) (V c main_v41) (V c main_v17) (V c main_arg5) (V c main_arg6) (V c main_arg7)) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128) hz1,
    View.ld_unit_zero (S := S128x41) hz, View.ld_unit_zero (S := S41) hz1]
  obtain ⟨e0, e1, e2, e3, e4, e5, e6, e7, e8, e9, e10, e11⟩ := idx_facts t
  have hN : cfg2.N = 20 := N_2
  have htl : t.val < 20 := hN ▸ t.isLt
  funext j
  obtain ⟨p, n, rfl⟩ : ∃ (p : Fin 5000) (n : Fin 41), j = ix2 p n := ⟨j 0, j 1, eq_ix2 j⟩
  have hr : t.val * 5000 + p.val < 100000 := by have := p.isLt; omega
  have hE : (((cfg2.win 6).blk t).view.emb (ix2 p n)) = ix2 (⟨t.val * 5000 + p.val, hr⟩ : Fin 100000) n := by
    funext a; refine Fin.ext ?_
    match a with
    | ⟨0, _⟩ => show win2_6.index t (0 : Fin 2) * 5000 + 1 * p.val = t.val * 5000 + p.val; omega
    | ⟨1, _⟩ => show win2_6.index t (1 : Fin 2) * 41 + 1 * n.val = n.val; omega
  show k2_pay1 (iblk2 V c 0 t) (iblk2 V c 1 t) (iblk2 V c 2 t) (iblk2 V c 3 t) (iblk2 V c 4 t) (iblk2 V c 5 t) (ix2 p n)
    = result (V c main_v30_0) (V c main_v41) (V c main_v17) (V c main_arg5) (V c main_arg6) (V c main_arg7) (((cfg2.win 6).blk t).view.emb (ix2 p n))
  rw [pay_apply, hE]
  show _ = logSoftmaxAt (logits (V c main_v30_0) (V c main_v41) (V c main_v17) (V c main_arg5) (V c main_arg6) (V c main_arg7))
    (Ideal.ofBits .f32 0xFF800000#32) (⟨t.val * 5000 + p.val, hr⟩ : Fin 100000) n
  have h0 : ∀ k' : Fin 128, iblk2 V c 0 t (ix2 p k') = V c main_v30_0 (ix2 (⟨t.val * 5000 + p.val, hr⟩ : Fin 100000) k') := by
    intro k'
    show V c main_v30_0 (((cfg2.win 0).blk t).view.emb (ix2 p k')) = _
    refine congrArg (V c main_v30_0) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k'.val = k'.val; omega
  have h1 : ∀ k' : Fin 128, iblk2 V c 1 t (ix2 p k') = V c main_v41 (ix2 (⟨t.val * 5000 + p.val, hr⟩ : Fin 100000) k') := by
    intro k'
    show V c main_v41 (((cfg2.win 1).blk t).view.emb (ix2 p k')) = _
    refine congrArg (V c main_v41) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k'.val = k'.val; omega
  have h2 : iblk2 V c 2 t (ix2 p (0 : Fin 1)) = V c main_v17 (ix2 (⟨t.val * 5000 + p.val, hr⟩ : Fin 100000) (0 : Fin 1)) := by
    show V c main_v17 (((cfg2.win 2).blk t).view.emb (ix2 p (0 : Fin 1))) = _
    refine congrArg (V c main_v17) (funext fun a => Fin.ext ?_)
    match a with
    | ⟨0, _⟩ => show win2_2.index t (0 : Fin 2) * 5000 + 1 * p.val = t.val * 5000 + p.val; omega
    | ⟨1, _⟩ => show win2_2.index t (1 : Fin 2) * 1 + 1 * 0 = 0; omega
  have h3 : ∀ k' : Fin 128, iblk2 V c 3 t (ix1 k') = V c main_arg5 (ix1 k') := by
    intro k'
    show V c main_arg5 (((cfg2.win 3).blk t).view.emb (ix1 k')) = _
    refine congrArg (V c main_arg5) (funext fun a => Fin.ext ?_)
    match a with
    | ⟨0, _⟩ => show win2_3.index t (0 : Fin 1) * 128 + 1 * k'.val = k'.val; omega
  have h4 : ∀ (k' : Fin 128) (k : Fin 41), iblk2 V c 4 t (ix2 k' k) = V c main_arg6 (ix2 k' k) := by
    intro k' k
    show V c main_arg6 (((cfg2.win 4).blk t).view.emb (ix2 k' k)) = _
    refine congrArg (V c main_arg6) (funext fun a => Fin.ext ?_)
    match a with
    | ⟨0, _⟩ => show win2_4.index t (0 : Fin 2) * 128 + 1 * k'.val = k'.val; omega
    | ⟨1, _⟩ => show win2_4.index t (1 : Fin 2) * 41 + 1 * k.val = k.val; omega
  have h5 : ∀ k : Fin 41, iblk2 V c 5 t (ix1 k) = V c main_arg7 (ix1 k) := by
    intro k
    show V c main_arg7 (((cfg2.win 5).blk t).view.emb (ix1 k)) = _
    refine congrArg (V c main_arg7) (funext fun a => Fin.ext ?_)
    match a with
    | ⟨0, _⟩ => show win2_5.index t (0 : Fin 1) * 41 + 1 * k.val = k.val; omega
  exact logSoftmaxAt_congr _ _ _ p (⟨t.val * 5000 + p.val, hr⟩ : Fin 100000) n fun k =>
    block_row_eq (iblk2 V c 0 t) (iblk2 V c 1 t) (iblk2 V c 2 t) (iblk2 V c 3 t) (iblk2 V c 4 t) (iblk2 V c 5 t)
      (V c main_v30_0) (V c main_v41) (V c main_v17) (V c main_arg5) (V c main_arg6) (V c main_arg7) p (⟨t.val * 5000 + p.val, hr⟩ : Fin 100000)
      h0 h1 h2 h3 h4 h5 k

/-- An index of the array is in point `t`'s block iff each coordinate is in the block's range on its axis. -/
theorem mem_blk (t : Fin cfg2.N) (i : S100000x41.Idx) :
    i ∈ ((cfg2.win 6).blk t).view.set ↔ ∀ a : Fin 2, win2_6.index t a * S5000x41.size a ≤ (i a).val
      ∧ (i a).val < win2_6.index t a * S5000x41.size a + S5000x41.size a := by
  show i ∈ ((View.whole main_v42).slice (win2_6.rect t)).set ↔ _
  rw [View.set_slice_whole, Rect.mem_set_unit]
  exact Iff.rfl

/-- The blocks tile the array: row `r` is in the block of point `r / 5000`. -/
theorem cover (i : S100000x41.Idx) :
    ∃ t : Fin cfg2.N, (cfg2.win 6).flush t = true ∧ i ∈ ((cfg2.win 6).blk t).view.set := by
  have hi0 : (i 0).val < 100000 := (i 0).isLt
  have hi1 : (i 1).val < 41 := (i 1).isLt
  have hN : cfg2.N = 20 := N_2
  have ht : (i 0).val / 5000 < cfg2.N := by rw [hN]; omega
  refine ⟨⟨(i 0).val / 5000, ht⟩, flush2_6 _, ?_⟩
  rw [mem_blk]
  obtain ⟨-, -, -, -, -, -, -, -, -, -, e10, e11⟩ := idx_facts ⟨(i 0).val / 5000, ht⟩
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [e10]; show (i 0).val / 5000 * 5000 ≤ (i 0).val ∧ (i 0).val < (i 0).val / 5000 * 5000 + 5000; omega
  | ⟨1, _⟩ =>
    show win2_6.index ⟨(i 0).val / 5000, ht⟩ (1 : Fin 2) * 41 ≤ (i 1).val
      ∧ (i 1).val < win2_6.index ⟨(i 0).val / 5000, ht⟩ (1 : Fin 2) * 41 + 41
    rw [e11]; omega

/-- THE ARRAY the third call leaves: the row-wise log-softmax of the logits of the arrays it finds. -/
theorem final (c : Dev nD) :
    (dat2 (F := Ideal) V c).arrAt 6 cfg2.N
      = result (V c main_v30_0) (V c main_v41) (V c main_v17) (V c main_arg5) (V c main_arg6) (V c main_arg7) :=
  (dat2 (F := Ideal) V c).arrAt_eq_of_cover 6 _ (fun t _ => flushed_eq V c t) cover

end Cert.KernelIdeal.Region2

end
-- ==== Proof.KernelSpec.lean ====
/-
  The idealized kernel's result as a function of the eight argument arrays: the per-node scale as a column, a table of
  rows gathered by the source rows and accumulated on the destination rows, and the three calls' functions composed.
  The edge lists, the degree and the per-node scale are the same host operations in both programs, so they are named by
  the reference's stages.
-/
import proofs.«134318_j91207925498527_2_alg».proof.Proof.Region0
import proofs.«134318_j91207925498527_2_alg».proof.Proof.Region1
import proofs.«134318_j91207925498527_2_alg».proof.Proof.Region2
import proofs.«134318_j91207925498527_2_alg».proof.Proof.RefReadP

noncomputable section

namespace Cert.KernelIdeal.Chain

open Cert.KernelIdeal Cert.KernelIdeal.Gen Idealize.ShloMosaic Idealize.ShloMosaic.ValueIdx

/-- The degree of every node: ones accumulated on the destination rows. -/
def degK (x1 : S2x1600000.Idx → BitVec 32) : S100000.Idx → EReal :=
  Host.scatterAdd (F := Ideal) (φ := .f32) scatter_S100000_S1700000x1_S1700000_n_0_0_1
    (broadcastInDim S100000 ![] bcast_S_S100000 (constant (F := Ideal) S_ .f32 0x00000000#32))
    (broadcastInDim S1700000x1 ![0] bcast_S1700000_S1700000x1_0 (Cert.ReferenceIdeal.ReadP.val_main_v6 (F := Ideal) x1))
    (broadcastInDim S1700000 ![] bcast_S_S1700000 (constant (F := Ideal) S_ .f32 0x3F800000#32))

/-- The per-node scale: where the degree is positive the reciprocal square root of `max(degree, 1)`, elsewhere 0. -/
def disK (x1 : S2x1600000.Idx → BitVec 32) : S100000.Idx → EReal :=
  select (cmpf (F := Ideal) .ogt (degK x1) (broadcastInDim S100000 ![] bcast_S_S100000 (constant (F := Ideal) S_ .f32 0x00000000#32)))
    (Host.rsqrt (F := Ideal) (φ := .f32) (maximumf (F := Ideal) (degK x1)
      (broadcastInDim S100000 ![] bcast_S_S100000 (constant (F := Ideal) S_ .f32 0x3F800000#32))))
    (broadcastInDim S100000 ![] bcast_S_S100000 (id (constant (F := Ideal) S_ .f32 0x00000000#32)))

/-- The per-node scale as the column the calls read. -/
def discCol (x1 : S2x1600000.Idx → BitVec 32) : S100000x1.Idx → EReal :=
  broadcastInDim S100000x1 ![0] bcast_S100000_S100000x1_0 (disK x1)

/-- A table of rows gathered by the (wrapped) source rows and accumulated on the destination rows. -/
def aggregate (x1 : S2x1600000.Idx → BitVec 32) (tbl : S100000x128.Idx → EReal) : S100000x128.Idx → EReal :=
  Host.scatterAdd (F := Ideal) (φ := .f32) scatter_S100000x128_S1700000x1_S1700000x128_1_0_0_1 (Cert.ReferenceIdeal.ReadP.val_main_v43 (F := Ideal))
    (Cert.ReferenceIdeal.ReadP.val_main_v44 (F := Ideal) x1)
    (Host.gather gather_S100000x128_S1700000x1_S1700000x128_1_0_n_n_0_1_1128 tbl (Cert.ReferenceIdeal.ReadP.val_main_v38 (F := Ideal) x1))

/-- The kernel's result as a function of the eight argument arrays. -/
def kernelOut (x0 : S100000x256.Idx → EReal) (x1 : S2x1600000.Idx → BitVec 32) (x2 : S256x128.Idx → EReal)
    (x3 : S128.Idx → EReal) (x4 : S128x128.Idx → EReal) (x5 : S128.Idx → EReal) (x6 : S128x41.Idx → EReal)
    (x7 : S41.Idx → EReal) : S100000x41.Idx → EReal :=
  let agg1 := aggregate x1 (Region0.scaledProduct x0 x2 (discCol x1))
  Region2.result (Region1.activated agg1 (discCol x1) x3)
    (aggregate x1 (Region1.scaledNext agg1 (discCol x1) x3 x4)) (discCol x1) x5 x6 x7

end Cert.KernelIdeal.Chain

end
-- ==== Proof.LibTRefCast.lean ====
/-
  A tensor value's contents carried to its buffer's type and back.

  A called function's operations are stated over typed references: each result is carried to the type of the buffer it is
  written to, and each operand back from it.  Both carriers are casts along the equation between the two types, so one
  after the other is the identity.
-/
import Idealize.ShloMosaic.Lib.StableHlo

noncomputable section

namespace Cert.LibTRefCast

open Idealize.ShloMosaic Idealize.ShloMosaic.StableHlo

/-- Contents carried to a buffer's type and back are unchanged. -/
theorem ofBuf_toBuf {sig : RefSig} {Val : EltTy → Type} {T : BufTy} (x : TRef sig T) (v : T.Contents Val) :
    x.ofBuf (x.toBuf v) = v := by
  unfold TRef.ofBuf TRef.toBuf
  rw [cast_cast]
  exact cast_eq _ _

end Cert.LibTRefCast

end
-- ==== Proof.KernelScale.lean ====
/-
  The per-node column as the first call finds it: the degree (ones accumulated on the destination rows), the condition
  "degree positive", the reciprocal square root of `max(degree, 1)`, the select between it and zero in the called
  function, and the broadcast to a column, read off the three stretches of host operations before the first call.
-/
import proofs.«134318_j91207925498527_2_alg».proof.Proof.KernelRun
import proofs.«134318_j91207925498527_2_alg».proof.Proof.KernelSpec
import proofs.«134318_j91207925498527_2_alg».proof.Proof.LibTRefCast

set_option maxRecDepth 16384

noncomputable section

namespace Cert.KernelIdeal.Chain

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg) (c : Dev nD)

set_option maxHeartbeats 8000000 in
theorem e1_v10 : W1 m ρ c (Proc.devRef .tc main_v10) = degK (m ((c : Thread nD τ).loc main_arg1)) := by
  show StableHlo.after hostOps0 (W0 m ρ c) (Proc.devRef .tc main_v10) = _
  after_results_simp
  rfl
set_option maxHeartbeats 8000000 in
theorem e1_v12 : W1 m ρ c (Proc.devRef .tc main_v12) = cmpf (F := Ideal) .ogt (degK (m ((c : Thread nD τ).loc main_arg1))) (broadcastInDim S100000 ![] bcast_S_S100000 (constant (F := Ideal) S_ .f32 0x00000000#32)) := by
  show StableHlo.after hostOps0 (W0 m ρ c) (Proc.devRef .tc main_v12) = _
  after_results_simp
  rfl
set_option maxHeartbeats 8000000 in
theorem e1_v15 : W1 m ρ c (Proc.devRef .tc main_v15)
    = Host.rsqrt (F := Ideal) (φ := .f32) (maximumf (F := Ideal) (degK (m ((c : Thread nD τ).loc main_arg1))) (broadcastInDim S100000 ![] bcast_S_S100000 (constant (F := Ideal) S_ .f32 0x3F800000#32))) := by
  show StableHlo.after hostOps0 (W0 m ρ c) (Proc.devRef .tc main_v15) = _
  after_results_simp
  rfl
theorem e1_cst3 : W1 m ρ c (Proc.devRef .tc main_cst_3) = constant (F := Ideal) S_ .f32 0x00000000#32 := by
  show StableHlo.after hostOps0 (W0 m ρ c) (Proc.devRef .tc main_cst_3) = _
  after_results_simp
/-- The called function's select, over ANY contents: from a condition `A`, a vector `B` and a scalar `Z` in its three
    operand buffers it leaves `select A B (Z spread over the nodes)`. -/
theorem where_read (U : Valuation τ sig (Elt Ideal)) (A : IVec S100000 1) (B : FVec Ideal S100000 .f32) (Z : FVec Ideal S_ .f32)
    (h12 : U (Proc.devRef .tc main_v12) = A) (h15 : U (Proc.devRef .tc main_v15) = B) (hc : U (Proc.devRef .tc main_cst_3) = Z) :
    StableHlo.after hostOps0_1 U (Proc.devRef .tc main_v16) = select A B (broadcastInDim S100000 ![] bcast_S_S100000 (id Z)) := by
  after_results
  rw [h12, h15, hc]
  simp only [Cert.LibTRefCast.ofBuf_toBuf]
  rfl

/-- The per-node scale, after the select of the called function. -/
theorem e2_v16 : W2 m ρ c (Proc.devRef .tc main_v16) = disK (m ((c : Thread nD τ).loc main_arg1)) :=
  where_read (W1 m ρ c) _ _ _ (e1_v12 m ρ c) (e1_v15 m ρ c) (e1_cst3 m ρ c)

theorem e3_v17 : W3 m ρ c (Proc.devRef .tc main_v17) = (discCol (m ((c : Thread nD τ).loc main_arg1))) := by
  have h16 := e2_v16 m ρ c
  show StableHlo.after hostOps0_2 (W2 m ρ c) (Proc.devRef .tc main_v17) = _
  generalize W2 m ρ c = U at h16 ⊢
  after_results
  rw [h16]
  rfl

end Cert.KernelIdeal.Chain

end
-- ==== Proof.KernelValue.lean ====
/-
  The idealized kernel's result buffer as a function of the argument arrays.

  The run leaves the result buffer at the last boundary's contents.  Reading back through the boundaries:
  the third call leaves the row-wise log-softmax of the logits of what it finds; what it finds is the first
  activation (left by the second call), the second accumulation (a gather of the second call's other output by the
  source rows, accumulated on the destination rows), the per-node column and three arguments; and so on back to the
  launch.  The edge lists, the degree and the per-node scale are the same host operations in both programs, so they are
  named here by the reference's stages.
-/
import proofs.«134318_j91207925498527_2_alg».proof.Proof.KernelRun
import proofs.«134318_j91207925498527_2_alg».proof.Proof.KernelScale

set_option maxRecDepth 16384

noncomputable section

namespace Cert.KernelIdeal.Chain

open Cert.KernelIdeal Cert.KernelIdeal.Gen Idealize.ShloMosaic Idealize.ShloMosaic.ValueIdx Idealize.ShloMosaic.TcCoe Idealize.SL.Sem
open Idealize.ShloMosaic.Pipeline (Dat Cfg Window)

/-- A buffer that no operation of a stretch writes keeps its contents over the stretch. -/
local macro "keeps " ops:ident : term => `(StableHlo.after_of_forall_not_mem _ _ (List.forall_iff_forall_mem.mp (by
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide))))

variable (m : (ℓ : Loc nD τ sig) → Buf (Elt Ideal) ℓ) (ρ : Dev nD → PrngReg) (c : Dev nD)

/-! ## The first call's entry: the three stretches of host operations from the launch -/

theorem e3_v3 : W3 m ρ c (Proc.devRef .tc main_v3) = Cert.ReferenceIdeal.ReadP.val_main_v3 (F := Ideal) (m ((c : Thread nD τ).loc main_arg1)) := by
  show StableHlo.after hostOps0_2 (StableHlo.after hostOps0_1 (StableHlo.after hostOps0 (W0 m ρ c))) (Proc.devRef .tc main_v3) = _
  after_results
  rfl
theorem e3_v6 : W3 m ρ c (Proc.devRef .tc main_v6) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v6) = _
  after_results
  rfl
theorem e3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
theorem e3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
theorem e3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
theorem e3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
theorem e3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
theorem e3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
theorem e3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results

/-! ## The first call's exit -/

theorem e4_v18 : W4 m ρ c (Proc.devRef .tc main_v18) = (Region0.scaledProduct (m ((c : Thread nD τ).loc main_arg0)) (m ((c : Thread nD τ).loc main_arg2)) (discCol (m ((c : Thread nD τ).loc main_arg1)))) := by
  have h := (W4_arr m ρ c 3).trans (Region0.final (V3 m ρ) c)
  rw [show V3 m ρ c main_arg0 = (m ((c : Thread nD τ).loc main_arg0)) from e3_arg0 m ρ c, show V3 m ρ c main_arg2 = (m ((c : Thread nD τ).loc main_arg2)) from e3_arg2 m ρ c,
    show V3 m ρ c main_v17 = (discCol (m ((c : Thread nD τ).loc main_arg1))) from e3_v17 m ρ c] at h
  exact h
theorem e4_v3 : W4 m ρ c (Proc.devRef .tc main_v3) = Cert.ReferenceIdeal.ReadP.val_main_v3 (F := Ideal) (m ((c : Thread nD τ).loc main_arg1)) := (W4_of_ne m ρ c main_v3 (by decide)).trans (e3_v3 m ρ c)
theorem e4_v6 : W4 m ρ c (Proc.devRef .tc main_v6) = Cert.ReferenceIdeal.ReadP.val_main_v6 (F := Ideal) (m ((c : Thread nD τ).loc main_arg1)) := (W4_of_ne m ρ c main_v6 (by decide)).trans (e3_v6 m ρ c)
theorem e4_v17 : W4 m ρ c (Proc.devRef .tc main_v17) = (discCol (m ((c : Thread nD τ).loc main_arg1))) :=
  ((W4_arr m ρ c 2).trans (((dat0 (V3 m ρ) c).arrAt_in 2 rfl _).trans (A_eq0 (V3 m ρ) c 2))).trans (e3_v17 m ρ c)
theorem e4_arg3 : W4 m ρ c (Proc.devRef .tc main_arg3) = (m ((c : Thread nD τ).loc main_arg3)) := (W4_of_ne m ρ c main_arg3 (by decide)).trans (e3_arg3 m ρ c)
theorem e4_arg4 : W4 m ρ c (Proc.devRef .tc main_arg4) = (m ((c : Thread nD τ).loc main_arg4)) := (W4_of_ne m ρ c main_arg4 (by decide)).trans (e3_arg4 m ρ c)
theorem e4_arg5 : W4 m ρ c (Proc.devRef .tc main_arg5) = (m ((c : Thread nD τ).loc main_arg5)) := (W4_of_ne m ρ c main_arg5 (by decide)).trans (e3_arg5 m ρ c)
theorem e4_arg6 : W4 m ρ c (Proc.devRef .tc main_arg6) = (m ((c : Thread nD τ).loc main_arg6)) := (W4_of_ne m ρ c main_arg6 (by decide)).trans (e3_arg6 m ρ c)
theorem e4_arg7 : W4 m ρ c (Proc.devRef .tc main_arg7) = (m ((c : Thread nD τ).loc main_arg7)) := (W4_of_ne m ρ c main_arg7 (by decide)).trans (e3_arg7 m ρ c)

/-! ## The second call's entry: the first accumulation -/

set_option maxHeartbeats 8000000 in
theorem e5_v29 : W5 m ρ c (Proc.devRef .tc main_v29) = (aggregate (m ((c : Thread nD τ).loc main_arg1)) (Region0.scaledProduct (m ((c : Thread nD τ).loc main_arg0)) (m ((c : Thread nD τ).loc main_arg2)) (discCol (m ((c : Thread nD τ).loc main_arg1))))) := by
  show StableHlo.after hostOps1 (W4 m ρ c) (Proc.devRef .tc main_v29) = _
  after_results
  rw [e4_v18 m ρ c, e4_v3 m ρ c, e4_v6 m ρ c]
  rfl
theorem e5_v3 : W5 m ρ c (Proc.devRef .tc main_v3) = Cert.ReferenceIdeal.ReadP.val_main_v3 (F := Ideal) (m ((c : Thread nD τ).loc main_arg1)) := (keeps hostOps1 : W5 m ρ c (Proc.devRef .tc main_v3) = W4 m ρ c (Proc.devRef .tc main_v3)).trans (e4_v3 m ρ c)
theorem e5_v6 : W5 m ρ c (Proc.devRef .tc main_v6) = Cert.ReferenceIdeal.ReadP.val_main_v6 (F := Ideal) (m ((c : Thread nD τ).loc main_arg1)) := (keeps hostOps1 : W5 m ρ c (Proc.devRef .tc main_v6) = W4 m ρ c (Proc.devRef .tc main_v6)).trans (e4_v6 m ρ c)
theorem e5_v17 : W5 m ρ c (Proc.devRef .tc main_v17) = (discCol (m ((c : Thread nD τ).loc main_arg1))) := (keeps hostOps1 : W5 m ρ c (Proc.devRef .tc main_v17) = W4 m ρ c (Proc.devRef .tc main_v17)).trans (e4_v17 m ρ c)
theorem e5_arg3 : W5 m ρ c (Proc.devRef .tc main_arg3) = (m ((c : Thread nD τ).loc main_arg3)) := (keeps hostOps1 : W5 m ρ c (Proc.devRef .tc main_arg3) = W4 m ρ c (Proc.devRef .tc main_arg3)).trans (e4_arg3 m ρ c)
theorem e5_arg4 : W5 m ρ c (Proc.devRef .tc main_arg4) = (m ((c : Thread nD τ).loc main_arg4)) := (keeps hostOps1 : W5 m ρ c (Proc.devRef .tc main_arg4) = W4 m ρ c (Proc.devRef .tc main_arg4)).trans (e4_arg4 m ρ c)
theorem e5_arg5 : W5 m ρ c (Proc.devRef .tc main_arg5) = (m ((c : Thread nD τ).loc main_arg5)) := (keeps hostOps1 : W5 m ρ c (Proc.devRef .tc main_arg5) = W4 m ρ c (Proc.devRef .tc main_arg5)).trans (e4_arg5 m ρ c)
theorem e5_arg6 : W5 m ρ c (Proc.devRef .tc main_arg6) = (m ((c : Thread nD τ).loc main_arg6)) := (keeps hostOps1 : W5 m ρ c (Proc.devRef .tc main_arg6) = W4 m ρ c (Proc.devRef .tc main_arg6)).trans (e4_arg6 m ρ c)
theorem e5_arg7 : W5 m ρ c (Proc.devRef .tc main_arg7) = (m ((c : Thread nD τ).loc main_arg7)) := (keeps hostOps1 : W5 m ρ c (Proc.devRef .tc main_arg7) = W4 m ρ c (Proc.devRef .tc main_arg7)).trans (e4_arg7 m ρ c)

/-! ## The second call's exit -/

theorem e6_v30_0 : W6 m ρ c (Proc.devRef .tc main_v30_0) = (Region1.activated (aggregate (m ((c : Thread nD τ).loc main_arg1)) (Region0.scaledProduct (m ((c : Thread nD τ).loc main_arg0)) (m ((c : Thread nD τ).loc main_arg2)) (discCol (m ((c : Thread nD τ).loc main_arg1))))) (discCol (m ((c : Thread nD τ).loc main_arg1))) (m ((c : Thread nD τ).loc main_arg3))) := by
  have h := (W6_arr m ρ c 4).trans (Region1.final4 (V5 m ρ) c)
  rw [show V5 m ρ c main_v29 = (aggregate (m ((c : Thread nD τ).loc main_arg1)) (Region0.scaledProduct (m ((c : Thread nD τ).loc main_arg0)) (m ((c : Thread nD τ).loc main_arg2)) (discCol (m ((c : Thread nD τ).loc main_arg1))))) from e5_v29 m ρ c, show V5 m ρ c main_v17 = (discCol (m ((c : Thread nD τ).loc main_arg1))) from e5_v17 m ρ c,
    show V5 m ρ c main_arg3 = (m ((c : Thread nD τ).loc main_arg3)) from e5_arg3 m ρ c] at h
  exact h
theorem e6_v30_1 : W6 m ρ c (Proc.devRef .tc main_v30_1) = (Region1.scaledNext (aggregate (m ((c : Thread nD τ).loc main_arg1)) (Region0.scaledProduct (m ((c : Thread nD τ).loc main_arg0)) (m ((c : Thread nD τ).loc main_arg2)) (discCol (m ((c : Thread nD τ).loc main_arg1))))) (discCol (m ((c : Thread nD τ).loc main_arg1))) (m ((c : Thread nD τ).loc main_arg3)) (m ((c : Thread nD τ).loc main_arg4))) := by
  have h := (W6_arr m ρ c 5).trans (Region1.final5 (V5 m ρ) c)
  rw [show V5 m ρ c main_v29 = (aggregate (m ((c : Thread nD τ).loc main_arg1)) (Region0.scaledProduct (m ((c : Thread nD τ).loc main_arg0)) (m ((c : Thread nD τ).loc main_arg2)) (discCol (m ((c : Thread nD τ).loc main_arg1))))) from e5_v29 m ρ c, show V5 m ρ c main_v17 = (discCol (m ((c : Thread nD τ).loc main_arg1))) from e5_v17 m ρ c,
    show V5 m ρ c main_arg3 = (m ((c : Thread nD τ).loc main_arg3)) from e5_arg3 m ρ c, show V5 m ρ c main_arg4 = (m ((c : Thread nD τ).loc main_arg4)) from e5_arg4 m ρ c] at h
  exact h
theorem e6_v3 : W6 m ρ c (Proc.devRef .tc main_v3) = Cert.ReferenceIdeal.ReadP.val_main_v3 (F := Ideal) (m ((c : Thread nD τ).loc main_arg1)) := (W6_of_ne m ρ c main_v3 (by decide)).trans (e5_v3 m ρ c)
theorem e6_v6 : W6 m ρ c (Proc.devRef .tc main_v6) = Cert.ReferenceIdeal.ReadP.val_main_v6 (F := Ideal) (m ((c : Thread nD τ).loc main_arg1)) := (W6_of_ne m ρ c main_v6 (by decide)).trans (e5_v6 m ρ c)
theorem e6_v17 : W6 m ρ c (Proc.devRef .tc main_v17) = (discCol (m ((c : Thread nD τ).loc main_arg1))) :=
  ((W6_arr m ρ c 1).trans (((dat1 (V5 m ρ) c).arrAt_in 1 rfl _).trans (A_eq1 (V5 m ρ) c 1))).trans (e5_v17 m ρ c)
theorem e6_arg5 : W6 m ρ c (Proc.devRef .tc main_arg5) = (m ((c : Thread nD τ).loc main_arg5)) := (W6_of_ne m ρ c main_arg5 (by decide)).trans (e5_arg5 m ρ c)
theorem e6_arg6 : W6 m ρ c (Proc.devRef .tc main_arg6) = (m ((c : Thread nD τ).loc main_arg6)) := (W6_of_ne m ρ c main_arg6 (by decide)).trans (e5_arg6 m ρ c)
theorem e6_arg7 : W6 m ρ c (Proc.devRef .tc main_arg7) = (m ((c : Thread nD τ).loc main_arg7)) := (W6_of_ne m ρ c main_arg7 (by decide)).trans (e5_arg7 m ρ c)

/-! ## The third call's entry: the second accumulation -/

set_option maxHeartbeats 8000000 in
theorem e7_v41 : W7 m ρ c (Proc.devRef .tc main_v41) = (aggregate (m ((c : Thread nD τ).loc main_arg1)) (Region1.scaledNext (aggregate (m ((c : Thread nD τ).loc main_arg1)) (Region0.scaledProduct (m ((c : Thread nD τ).loc main_arg0)) (m ((c : Thread nD τ).loc main_arg2)) (discCol (m ((c : Thread nD τ).loc main_arg1))))) (discCol (m ((c : Thread nD τ).loc main_arg1))) (m ((c : Thread nD τ).loc main_arg3)) (m ((c : Thread nD τ).loc main_arg4)))) := by
  show StableHlo.after hostOps2 (W6 m ρ c) (Proc.devRef .tc main_v41) = _
  after_results
  rw [e6_v30_1 m ρ c, e6_v3 m ρ c, e6_v6 m ρ c]
  rfl
theorem e7_v30_0 : W7 m ρ c (Proc.devRef .tc main_v30_0) = (Region1.activated (aggregate (m ((c : Thread nD τ).loc main_arg1)) (Region0.scaledProduct (m ((c : Thread nD τ).loc main_arg0)) (m ((c : Thread nD τ).loc main_arg2)) (discCol (m ((c : Thread nD τ).loc main_arg1))))) (discCol (m ((c : Thread nD τ).loc main_arg1))) (m ((c : Thread nD τ).loc main_arg3))) := (keeps hostOps2 : W7 m ρ c (Proc.devRef .tc main_v30_0) = W6 m ρ c (Proc.devRef .tc main_v30_0)).trans (e6_v30_0 m ρ c)
theorem e7_v17 : W7 m ρ c (Proc.devRef .tc main_v17) = (discCol (m ((c : Thread nD τ).loc main_arg1))) := (keeps hostOps2 : W7 m ρ c (Proc.devRef .tc main_v17) = W6 m ρ c (Proc.devRef .tc main_v17)).trans (e6_v17 m ρ c)
theorem e7_arg5 : W7 m ρ c (Proc.devRef .tc main_arg5) = (m ((c : Thread nD τ).loc main_arg5)) := (keeps hostOps2 : W7 m ρ c (Proc.devRef .tc main_arg5) = W6 m ρ c (Proc.devRef .tc main_arg5)).trans (e6_arg5 m ρ c)
theorem e7_arg6 : W7 m ρ c (Proc.devRef .tc main_arg6) = (m ((c : Thread nD τ).loc main_arg6)) := (keeps hostOps2 : W7 m ρ c (Proc.devRef .tc main_arg6) = W6 m ρ c (Proc.devRef .tc main_arg6)).trans (e6_arg6 m ρ c)
theorem e7_arg7 : W7 m ρ c (Proc.devRef .tc main_arg7) = (m ((c : Thread nD τ).loc main_arg7)) := (keeps hostOps2 : W7 m ρ c (Proc.devRef .tc main_arg7) = W6 m ρ c (Proc.devRef .tc main_arg7)).trans (e6_arg7 m ρ c)

/-! ## The third call's exit: the result -/

/-- THE RESULT BUFFER at the last boundary is `kernelOut` of the argument arrays as launched. -/
theorem kernel_value : W8 m ρ c (Proc.devRef .tc main_v42)
    = kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have h := (W8_arr m ρ c 6).trans (Region2.final (V7 m ρ) c)
  rw [show V7 m ρ c main_v30_0 = (Region1.activated (aggregate (m ((c : Thread nD τ).loc main_arg1)) (Region0.scaledProduct (m ((c : Thread nD τ).loc main_arg0)) (m ((c : Thread nD τ).loc main_arg2)) (discCol (m ((c : Thread nD τ).loc main_arg1))))) (discCol (m ((c : Thread nD τ).loc main_arg1))) (m ((c : Thread nD τ).loc main_arg3))) from e7_v30_0 m ρ c, show V7 m ρ c main_v41 = (aggregate (m ((c : Thread nD τ).loc main_arg1)) (Region1.scaledNext (aggregate (m ((c : Thread nD τ).loc main_arg1)) (Region0.scaledProduct (m ((c : Thread nD τ).loc main_arg0)) (m ((c : Thread nD τ).loc main_arg2)) (discCol (m ((c : Thread nD τ).loc main_arg1))))) (discCol (m ((c : Thread nD τ).loc main_arg1))) (m ((c : Thread nD τ).loc main_arg3)) (m ((c : Thread nD τ).loc main_arg4)))) from e7_v41 m ρ c,
    show V7 m ρ c main_v17 = (discCol (m ((c : Thread nD τ).loc main_arg1))) from e7_v17 m ρ c, show V7 m ρ c main_arg5 = (m ((c : Thread nD τ).loc main_arg5)) from e7_arg5 m ρ c,
    show V7 m ρ c main_arg6 = (m ((c : Thread nD τ).loc main_arg6)) from e7_arg6 m ρ c, show V7 m ρ c main_arg7 = (m ((c : Thread nD τ).loc main_arg7)) from e7_arg7 m ρ c] at h
  exact h

end Cert.KernelIdeal.Chain

end
-- ==== Proof.RefRun.lean ====
/-
  The reference's run.

  The reference is a straight line of 109 host operations.  Every weakly fair execution of it terminates, nothing
  faults, each argument array ends as launched, and the result buffer ends at the fold of the operations, in order, over
  the launch contents: each operation rewrites the buffer it writes to its function of the buffers it reads and leaves
  every other buffer alone.
-/
import proofs.«134318_j91207925498527_2_alg».proof.Proof.RefRunP

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 4000000 in
/-- On every device: every weakly fair execution of @main terminates with the result buffer at the fold of the
    operations over the launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73) = after (ops (F := F)) (launchContents m c) (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v73,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  The reference's result buffer as a function of the argument arrays.

  The run leaves the result buffer at the fold of the 109 operations over the launch contents.  The operations are cut
  after the first layer's activation (`%49`) and after the second's (`%67`).  Over each stretch a buffer's contents
  are its operations' value of the buffers the stretch starts from, so the fold is read stretch by stretch: the first
  gives the edge lists, the edge weights and the first activation as the stages of the arguments; the second the second
  activation from those; the third the log-softmax of the head's logits.
-/
import proofs.«134318_j91207925498527_2_alg».proof.Proof.RefRun
import proofs.«134318_j91207925498527_2_alg».proof.Proof.RefReadP
import proofs.«134318_j91207925498527_2_alg».proof.Proof.LibTRefCast

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lines run one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operations up to the first layer's activation `%49`. -/
abbrev seg0 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S1700000 ![] bcast_S_S1700000 : (⟨S_, .i32⟩ : BufTy).Contents (Elt F) → (⟨S1700000, .i32⟩ : BufTy).Contents (Elt F)),
    binary main_v3 main_v17 main_v18 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v19 (broadcastInDim S1700000 ![] bcast_S_S1700000 : (⟨S_, .i32⟩ : BufTy).Contents (Elt F) → (⟨S1700000, .i32⟩ : BufTy).Contents (Elt F)),
    binary main_v3 main_v19 main_v20 (addi : (⟨S1700000, .i32⟩ : BufTy).Contents (Elt F) → (⟨S1700000, .i32⟩ : BufTy).Contents (Elt F) → (⟨S1700000, .i32⟩ : BufTy).Contents (Elt F)),
    ternary main_v18 main_v20 main_v3 main_v21 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v21 main_v22 (broadcastInDim S1700000x1 ![0] bcast_S1700000_S1700000x1_0 : (⟨S1700000, .i32⟩ : BufTy).Contents (Elt F) → (⟨S1700000x1, .i32⟩ : BufTy).Contents (Elt F)),
    binary main_v16 main_v22 main_v23 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_5 (constantI S_ 32 0#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v16 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    binary main_arg0 main_arg2 main_v32 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    nullary main_c_7 (constantI S_ 32 0#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_8 (constantI S_ 32 100000#32),
    unary main_c_8 main_v35 (broadcastInDim S1700000 ![] bcast_S_S1700000 : (⟨S_, .i32⟩ : BufTy).Contents (Elt F) → (⟨S1700000, .i32⟩ : BufTy).Contents (Elt F)),
    binary main_v3 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v3 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_v32 main_v38 main_v39 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v40 (broadcastInDim S1700000x1 ![0] bcast_S1700000_S1700000x1_0 : (⟨S1700000, .f32⟩ : BufTy).Contents (Elt F) → (⟨S1700000x1, .f32⟩ : BufTy).Contents (Elt F)),
    unary main_v40 main_v41 (broadcastInDim S1700000x128 ![0, 1] bcast_S1700000x1_S1700000x128_0_1 : (⟨S1700000x1, .f32⟩ : BufTy).Contents (Elt F) → (⟨S1700000x128, .f32⟩ : BufTy).Contents (Elt F)),
    binary main_v39 main_v41 main_v42 (mulf : (⟨S1700000x128, .f32⟩ : BufTy).Contents (Elt F) → (⟨S1700000x128, .f32⟩ : BufTy).Contents (Elt F) → (⟨S1700000x128, .f32⟩ : BufTy).Contents (Elt F)),
    nullary main_cst_9 (constant S_ .f32 0x00000000#32),
    unary main_cst_9 main_v43 (broadcastInDim S100000x128 ![] bcast_S_S100000x128 : (⟨S_, .f32⟩ : BufTy).Contents (Elt F) → (⟨S100000x128, .f32⟩ : BufTy).Contents (Elt F)),
    unary main_v6 main_v44 (broadcastInDim S1700000x1 ![0] bcast_S1700000_S1700000x1_0 : (⟨S1700000, .i32⟩ : BufTy).Contents (Elt F) → (⟨S1700000x1, .i32⟩ : BufTy).Contents (Elt F)),
    ternary main_v43 main_v44 main_v42 main_v45 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v46 (broadcastInDim S1x128 ![1] bcast_S128_S1x128_1 : (⟨S128, .f32⟩ : BufTy).Contents (Elt F) → (⟨S1x128, .f32⟩ : BufTy).Contents (Elt F)),
    unary main_v46 main_v47 (broadcastInDim S100000x128 ![0, 1] bcast_S1x128_S100000x128_0_1 : (⟨S1x128, .f32⟩ : BufTy).Contents (Elt F) → (⟨S100000x128, .f32⟩ : BufTy).Contents (Elt F)),
    binary main_v45 main_v47 main_v48 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v48) (TRef.of (T := ⟨S100000x128, .f32⟩) main_call1_v0) (TRef.of (T := ⟨S100000x128, .f32⟩) main_v49) maximumf ]

/-- The operations of the second layer, up to its activation `%67`. -/
abbrev seg1 : List (HloOp τ sig (Elt F)) :=
  [ binary main_v49 main_arg4 main_v50 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (cmpi .slt : (⟨S1700000, .i32⟩ : BufTy).Contents (Elt F) → (⟨S1700000, .i32⟩ : BufTy).Contents (Elt F) → (⟨S1700000, .i1⟩ : BufTy).Contents (Elt F)),
    nullary main_c_11 (constantI S_ 32 100000#32),
    unary main_c_11 main_v53 (broadcastInDim S1700000 ![] bcast_S_S1700000 : (⟨S_, .i32⟩ : BufTy).Contents (Elt F) → (⟨S1700000, .i32⟩ : BufTy).Contents (Elt F)),
    binary main_v3 main_v53 main_v54 (addi : (⟨S1700000, .i32⟩ : BufTy).Contents (Elt F) → (⟨S1700000, .i32⟩ : BufTy).Contents (Elt F) → (⟨S1700000, .i32⟩ : BufTy).Contents (Elt F)),
    ternary main_v52 main_v54 main_v3 main_v55 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v55 main_v56 (broadcastInDim S1700000x1 ![0] bcast_S1700000_S1700000x1_0 : (⟨S1700000, .i32⟩ : BufTy).Contents (Elt F) → (⟨S1700000x1, .i32⟩ : BufTy).Contents (Elt F)),
    binary main_v50 main_v56 main_v57 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v31 main_v58 (broadcastInDim S1700000x1 ![0] bcast_S1700000_S1700000x1_0 : (⟨S1700000, .f32⟩ : BufTy).Contents (Elt F) → (⟨S1700000x1, .f32⟩ : BufTy).Contents (Elt F)),
    unary main_v58 main_v59 (broadcastInDim S1700000x128 ![0, 1] bcast_S1700000x1_S1700000x128_0_1 : (⟨S1700000x1, .f32⟩ : BufTy).Contents (Elt F) → (⟨S1700000x128, .f32⟩ : BufTy).Contents (Elt F)),
    binary main_v57 main_v59 main_v60 (mulf : (⟨S1700000x128, .f32⟩ : BufTy).Contents (Elt F) → (⟨S1700000x128, .f32⟩ : BufTy).Contents (Elt F) → (⟨S1700000x128, .f32⟩ : BufTy).Contents (Elt F)),
    nullary main_cst_12 (constant S_ .f32 0x00000000#32),
    unary main_cst_12 main_v61 (broadcastInDim S100000x128 ![] bcast_S_S100000x128 : (⟨S_, .f32⟩ : BufTy).Contents (Elt F) → (⟨S100000x128, .f32⟩ : BufTy).Contents (Elt F)),
    unary main_v6 main_v62 (broadcastInDim S1700000x1 ![0] bcast_S1700000_S1700000x1_0 : (⟨S1700000, .i32⟩ : BufTy).Contents (Elt F) → (⟨S1700000x1, .i32⟩ : BufTy).Contents (Elt F)),
    ternary main_v61 main_v62 main_v60 main_v63 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v64 (broadcastInDim S1x128 ![1] bcast_S128_S1x128_1 : (⟨S128, .f32⟩ : BufTy).Contents (Elt F) → (⟨S1x128, .f32⟩ : BufTy).Contents (Elt F)),
    unary main_v64 main_v65 (broadcastInDim S100000x128 ![0, 1] bcast_S1x128_S100000x128_0_1 : (⟨S1x128, .f32⟩ : BufTy).Contents (Elt F) → (⟨S100000x128, .f32⟩ : BufTy).Contents (Elt F)),
    binary main_v63 main_v65 main_v66 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v66) (TRef.of (T := ⟨S100000x128, .f32⟩) main_call2_v0) (TRef.of (T := ⟨S100000x128, .f32⟩) main_v67) maximumf ]

/-- The head, its bias and the log-softmax. -/
abbrev seg2 : List (HloOp τ sig (Elt F)) :=
  [ binary main_v49 main_v67 main_v68 (addf : (⟨S100000x128, .f32⟩ : BufTy).Contents (Elt F) → (⟨S100000x128, .f32⟩ : BufTy).Contents (Elt F) → (⟨S100000x128, .f32⟩ : BufTy).Contents (Elt F)),
    binary main_v68 main_arg6 main_v69 ((fun l r => Host.dotGeneral dot_S100000x128_S128x41_S100000x41_1_0_0_1_n_n none l r) : (⟨S100000x128, .f32⟩ : BufTy).Contents (Elt F) → (⟨S128x41, .f32⟩ : BufTy).Contents (Elt F) → (⟨S100000x41, .f32⟩ : BufTy).Contents (Elt F)),
    unary main_arg7 main_v70 (broadcastInDim S1x41 ![1] bcast_S41_S1x41_1 : (⟨S41, .f32⟩ : BufTy).Contents (Elt F) → (⟨S1x41, .f32⟩ : BufTy).Contents (Elt F)),
    unary main_v70 main_v71 (broadcastInDim S100000x41 ![0, 1] bcast_S1x41_S100000x41_0_1 : (⟨S1x41, .f32⟩ : BufTy).Contents (Elt F) → (⟨S100000x41, .f32⟩ : BufTy).Contents (Elt F)),
    binary main_v69 main_v71 main_v72 (addf : (⟨S100000x41, .f32⟩ : BufTy).Contents (Elt F) → (⟨S100000x41, .f32⟩ : BufTy).Contents (Elt F) → (⟨S100000x41, .f32⟩ : BufTy).Contents (Elt F)),
    TRef.nullary (TRef.of (T := ⟨S_, .f32⟩) main_call3_cst) (constant S_ .f32 0xFF800000#32),
    TRef.binary (TRef.of (T := ⟨S100000x41, .f32⟩) main_v72) (TRef.of (T := ⟨S_, .f32⟩) main_call3_cst) (TRef.of (T := ⟨S100000, .f32⟩) main_call3_v0) (fun x v => Host.reduce FloatOps.maximumf x v reducesTo_S100000x41_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x41, .f32⟩) main_call3_v4) (broadcastInDim S100000x41 ![0, 1] bcast_S100000x1_S100000x41_0_1),
    TRef.binary (TRef.of (T := ⟨S100000x41, .f32⟩) main_v72) (TRef.of (T := ⟨S100000x41, .f32⟩) main_call3_v4) (TRef.of (T := ⟨S100000x41, .f32⟩) main_call3_v5) subf,
    TRef.unary (TRef.of (T := ⟨S100000x41, .f32⟩) main_call3_v5) (TRef.of (T := ⟨S100000x41, .f32⟩) main_call3_v6) Host.exp,
    TRef.nullary (TRef.of (T := ⟨S_, .f32⟩) main_call3_cst_1) (constant S_ .f32 0x00000000#32),
    TRef.binary (TRef.of (T := ⟨S100000x41, .f32⟩) main_call3_v6) (TRef.of (T := ⟨S_, .f32⟩) main_call3_cst_1) (TRef.of (T := ⟨S100000, .f32⟩) main_call3_v7) (fun x v => Host.reduceAdd x v reducesTo_S100000x41_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x41, .f32⟩) main_call3_v10) (broadcastInDim S100000x41 ![0, 1] bcast_S100000x1_S100000x41_0_1),
    TRef.binary (TRef.of (T := ⟨S100000x41, .f32⟩) main_call3_v5) (TRef.of (T := ⟨S100000x41, .f32⟩) main_call3_v10) (TRef.of (T := ⟨S100000x41, .f32⟩) main_v73) subf ]

/-- @main's operations are the three stretches in order. -/
theorem ops_split : (ops : List (HloOp τ sig (Elt F))) = seg0 ++ (seg1 ++ seg2) := rfl

variable (V W : Valuation τ sig (Elt F))

/-! ## The first stretch, from the launch contents -/

set_option maxHeartbeats 16000000 in
/-- The first activation. -/
theorem s0_v49 : after seg0 V (Proc.devRef .tc main_v49) = val_main_v49 (F := F) (V (Proc.devRef .tc main_arg0)) (V (Proc.devRef .tc main_arg1)) (V (Proc.devRef .tc main_arg2)) (V (Proc.devRef .tc main_arg3)) := by
  after_results_simp
  rfl
set_option maxHeartbeats 16000000 in
/-- The source rows of the edges (with the self loops). -/
theorem s0_v3 : after seg0 V (Proc.devRef .tc main_v3) = val_main_v3 (F := F) (V (Proc.devRef .tc main_arg1)) := by
  after_results_simp
  rfl
set_option maxHeartbeats 16000000 in
/-- The destination rows. -/
theorem s0_v6 : after seg0 V (Proc.devRef .tc main_v6) = val_main_v6 (F := F) (V (Proc.devRef .tc main_arg1)) := by
  after_results_simp
  rfl
set_option maxHeartbeats 16000000 in
/-- The edge weights. -/
theorem s0_v31 : after seg0 V (Proc.devRef .tc main_v31) = val_main_v31 (F := F) (V (Proc.devRef .tc main_arg1)) := by
  after_results_simp
  rfl
theorem s0_arg4 : after seg0 V (Proc.devRef .tc main_arg4) = V (Proc.devRef .tc main_arg4) := by after_results
theorem s0_arg5 : after seg0 V (Proc.devRef .tc main_arg5) = V (Proc.devRef .tc main_arg5) := by after_results
theorem s0_arg6 : after seg0 V (Proc.devRef .tc main_arg6) = V (Proc.devRef .tc main_arg6) := by after_results
theorem s0_arg7 : after seg0 V (Proc.devRef .tc main_arg7) = V (Proc.devRef .tc main_arg7) := by after_results

/-! ## The second stretch, from any contents holding the first stretch's stages -/

set_option maxHeartbeats 16000000 in
/-- The second activation. -/
theorem s1_v67 (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x41, .f32⟩ : BufTy).Contents (Elt F)) (x7 : (⟨S41, .f32⟩ : BufTy).Contents (Elt F))
    (h49 : W (Proc.devRef .tc main_v49) = val_main_v49 (F := F) x0 x1 x2 x3) (h3 : W (Proc.devRef .tc main_v3) = val_main_v3 (F := F) x1)
    (h6 : W (Proc.devRef .tc main_v6) = val_main_v6 (F := F) x1) (h31 : W (Proc.devRef .tc main_v31) = val_main_v31 (F := F) x1)
    (h4 : W (Proc.devRef .tc main_arg4) = x4) (h5 : W (Proc.devRef .tc main_arg5) = x5) :
    after seg1 W (Proc.devRef .tc main_v67) = val_main_v67 (F := F) x0 x1 x2 x3 x4 x5 := by
  after_results_simp
  rw [h49, h3, h6, h31, h4, h5]
  rfl
theorem s1_v49 : after seg1 W (Proc.devRef .tc main_v49) = W (Proc.devRef .tc main_v49) := by after_results
theorem s1_arg6 : after seg1 W (Proc.devRef .tc main_arg6) = W (Proc.devRef .tc main_arg6) := by after_results
theorem s1_arg7 : after seg1 W (Proc.devRef .tc main_arg7) = W (Proc.devRef .tc main_arg7) := by after_results

/-! ## The third stretch, from any contents holding both activations -/

set_option maxHeartbeats 16000000 in
/-- The result: the log-softmax of the head's logits. -/
theorem s2_v73 (x0 : (⟨S100000x256, .f32⟩ : BufTy).Contents (Elt F)) (x1 : (⟨S2x1600000, .i32⟩ : BufTy).Contents (Elt F)) (x2 : (⟨S256x128, .f32⟩ : BufTy).Contents (Elt F)) (x3 : (⟨S128, .f32⟩ : BufTy).Contents (Elt F)) (x4 : (⟨S128x128, .f32⟩ : BufTy).Contents (Elt F)) (x5 : (⟨S128, .f32⟩ : BufTy).Contents (Elt F)) (x6 : (⟨S128x41, .f32⟩ : BufTy).Contents (Elt F)) (x7 : (⟨S41, .f32⟩ : BufTy).Contents (Elt F))
    (h49 : W (Proc.devRef .tc main_v49) = val_main_v49 (F := F) x0 x1 x2 x3) (h67 : W (Proc.devRef .tc main_v67) = val_main_v67 (F := F) x0 x1 x2 x3 x4 x5)
    (h6 : W (Proc.devRef .tc main_arg6) = x6) (h7 : W (Proc.devRef .tc main_arg7) = x7) :
    after seg2 W (Proc.devRef .tc main_v73) = val_main_v73 (F := F) x0 x1 x2 x3 x4 x5 x6 x7 := by
  after_results_simp
  rw [h49, h67, h6, h7]
  simp only [Cert.LibTRefCast.ofBuf_toBuf]
  rfl

/-! ## The whole line -/

/-- THE RESULT BUFFER after all 109 operations is the last stage of the contents of the argument buffers. -/
theorem value : after (ops (F := F)) V (Proc.devRef .tc main_v73) = val_main_v73 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_split, after_append, after_append]
  exact s2_v73 (after seg1 (after seg0 V)) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7))
    ((s1_v49 (after seg0 V)).trans (s0_v49 V))
    (s1_v67 (after seg0 V) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (s0_v49 V) (s0_v3 V) (s0_v6 V) (s0_v31 V) (s0_arg4 V) (s0_arg5 V))
    ((s1_arg6 (after seg0 V)).trans (s0_arg6 V)) ((s1_arg7 (after seg0 V)).trans (s0_arg7 V))

end Cert.ReferenceIdeal.RefValue

end
-- ==== Proof.GcnLayer.lean ====
/-
  The layer identity on the host operations themselves, and the clamp, over variables.

  Stated with every array, every index column and every dimension record a VARIABLE (the records with an equation
  saying which numbers they are), so that a program's terms meet these statements by matching, and nothing of a
  program's arrays is ever unfolded.
-/
import proofs.«134318_j91207925498527_2_alg».proof.Proof.GcnAlgebra

noncomputable section

namespace Cert.GcnLayer

open Idealize.ShloMosaic Idealize.ShloMosaic.ValueIdx Cert.LibRowGatherScatter Cert.GcnAlgebra

/-- THE LAYER IDENTITY on the host operations: the accumulation (a scatter with addition into `z`, zero everywhere) of
    the rows of `h` scaled by `δ` and gathered by the source rows, scaled by `δ` at the destination, is the accumulation
    of the gathered rows of `h` times the edge weights `W`, when `W` at `(e, f)` is `δ` at the source row times `δ` at the
    (wrapped) destination row, `δ` is everywhere a nonnegative real, and wrapping does not move a nonnegative row. -/
theorem conv_eq_ops {N R C : Nat} (hN : 0 < N)
    (gwf2 : GatherDims.WF ⟨2, ![N, C]⟩ ⟨2, ![R, 1]⟩ ⟨2, ![R, C]⟩ [1] [0] [] [0] [] 1 ![1, C])
    (gwf1 : GatherDims.WF ⟨1, ![N]⟩ ⟨2, ![R, 1]⟩ ⟨1, ![R]⟩ [] [0] [] [0] [] 1 ![1])
    (swf : ScatterDims.WF ⟨2, ![N, C]⟩ ⟨2, ![R, 1]⟩ ⟨2, ![R, C]⟩ [1] [0] [0] 1)
    (sdA sdB : ScatterDims ⟨2, ![N, C]⟩ ⟨2, ![R, 1]⟩ ⟨2, ![R, C]⟩)
    (hA : sdA = rowsScatter N R C swf) (hB : sdB = rowsScatter N R C swf)
    (gA gB : GatherDims ⟨2, ![N, C]⟩ ⟨2, ![R, 1]⟩ ⟨2, ![R, C]⟩)
    (hgA : gA = rowsDims N R C gwf2) (hgB : gB = rowsDims N R C gwf2)
    (g1 : GatherDims ⟨1, ![N]⟩ ⟨2, ![R, 1]⟩ ⟨1, ![R]⟩) (hg1 : g1 = eltsDims N R gwf1)
    (h : (⟨2, ![N, C]⟩ : Shape).Idx → EReal) (δ : (⟨1, ![N]⟩ : Shape).Idx → EReal)
    (hδ : ∀ n, 0 ≤ δ n ∧ δ n ≠ ⊤)
    (srcb dstb dstwb : IVec ⟨2, ![R, 1]⟩ 32)
    (hw : ∀ e : Fin R, 0 ≤ (dstb (ix2 e 0)).toInt → dstwb (ix2 e 0) = dstb (ix2 e 0))
    (z : (⟨2, ![N, C]⟩ : Shape).Idx → EReal) (hz : ∀ i, z i = 0)
    (W : (⟨2, ![R, C]⟩ : Shape).Idx → EReal)
    (hW : ∀ j, W j = Host.gather g1 δ srcb (ix1 (j 0)) * Host.gather g1 δ dstwb (ix1 (j 0)))
    (i : (⟨2, ![N, C]⟩ : Shape).Idx) :
    δ (ix1 (i 0)) * Host.scatterAdd (F := Ideal) (φ := .f32) sdA z dstb
        (Host.gather gA (fun p => h p * δ (ix1 (p 0))) srcb) i
      = Host.scatterAdd (F := Ideal) (φ := .f32) sdB z dstb (mulf (F := Ideal) (φ := .f32) (Host.gather gB h srcb) W) i := by
  subst hA hB hgA hgB hg1
  have hU : mulf (F := Ideal) (φ := .f32) (Host.gather (rowsDims N R C gwf2) h srcb) W
      = fun j => Host.gather (rowsDims N R C gwf2) h srcb j
          * (Host.gather (eltsDims N R gwf1) δ srcb (ix1 (j 0)) * Host.gather (eltsDims N R gwf1) δ dstwb (ix1 (j 0))) :=
    funext fun j => by
      show FloatOps.mulf (F := Ideal) (φ := .f32) (Host.gather (rowsDims N R C gwf2) h srcb j) (W j) = _
      rw [Ideal.mulf_def, hW j]
  rw [hU]
  exact conv_eq gwf2 gwf1 swf hN h δ hδ srcb dstb dstwb hw z hz i

/-- A sum clamped below, in the two spellings: `max (t + b) z` and the float operations' `maximumf (addf s b) z`, when
    `s` is `t`. -/
theorem relu_eq (t s b z : EReal) (hs : s = t) :
    max (t + b) z = FloatOps.maximumf (F := Ideal) (φ := .f32) (FloatOps.addf (F := Ideal) (φ := .f32) s b) z := by
  rw [hs, Ideal.maximumf_def, Ideal.addf_def]

end Cert.GcnLayer

end
-- ==== Proof.LibColumnHost.lean ====
/-
  The host's broadcast of a column `[a, 1]` over the columns of `[a, b]`, read at an index.
-/
import Idealize.ShloMosaic.Lib.Pipeline.Value
import Idealize.ShloMosaic.Lib.ValueIdx

noncomputable section

namespace Cert.LibColumnHost

open Idealize.ShloMosaic Idealize.ShloMosaic.ValueIdx

variable {α : Type}

/-- The host's broadcast of an `[a, 1]` column over the columns of `[a, b]` reads, at `(p, c)`, the column at `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ =>
    show 0 = if (1 : ℕ) = 1 then 0 else ((ix2 p c : (⟨2, ![a, b]⟩ : Shape).Idx) (dims 1)).val
    rw [if_pos rfl]

end Cert.LibColumnHost

end
-- ==== Proof.Bridge.lean ====
/-
  The kernel's function of the arguments is the reference's.

  Both programs compute the same per-node scale δ (0, or the reciprocal square root of a degree raised to at least 1: a
  nonnegative real number in either case).  The reference weights every gathered edge row by δ[src]·δ[dst] before
  accumulating it on its destination row; the kernel scales the table's rows by δ before the gather and the accumulated
  rows by δ after it.  The two agree by the layer identity (multiplication by a nonnegative real distributes over the
  finite sum; every edge accumulated on row d has destination d).  With the first layer's activations equal, the second
  layer's are equal in the same way, then the head's logits, and the two log-softmaxes are one expression of the logits
  once the host's `max(-∞, ·)` around its row maximum and its `0 +` in front of its row sum are read.
-/
import proofs.«134318_j91207925498527_2_alg».proof.Proof.KernelSpec
import proofs.«134318_j91207925498527_2_alg».proof.Proof.GcnAlgebra
import proofs.«134318_j91207925498527_2_alg».proof.Proof.GcnLayer
import proofs.«134318_j91207925498527_2_alg».proof.Proof.LibColumnHost
import Idealize.ShloMosaic.PureOps.Reduce

set_option maxRecDepth 16384

noncomputable section

namespace Cert.Bridge

open Cert.ReferenceIdeal Cert.ReferenceIdeal.Gen Cert.ReferenceIdeal.ReadP
open Idealize.ShloMosaic Idealize.ShloMosaic.ValueIdx
open Cert.LibRowGatherScatter Cert.GcnAlgebra

variable (x1 : S2x1600000.Idx → BitVec 32)

/-- The scale's form over ANY degree vector `d` and condition `c`: `select c (rsqrt (max d 1)) 0` is at every node a
    nonnegative real number. -/
theorem scale_form_nonneg (c : S100000.Idx → BitVec 1) (d : S100000.Idx → EReal) (n : S100000.Idx) :
    0 ≤ (select c (Host.rsqrt (F := Ideal) (φ := .f32) (maximumf (F := Ideal) d
            (broadcastInDim S100000 ![] bcast_S_S100000 (constant (F := Ideal) S_ .f32 0x3F800000#32))))
          (broadcastInDim S100000 ![] bcast_S_S100000 (id (constant (F := Ideal) S_ .f32 0x00000000#32)))) n
      ∧ (select c (Host.rsqrt (F := Ideal) (φ := .f32) (maximumf (F := Ideal) d
            (broadcastInDim S100000 ![] bcast_S_S100000 (constant (F := Ideal) S_ .f32 0x3F800000#32))))
          (broadcastInDim S100000 ![] bcast_S_S100000 (id (constant (F := Ideal) S_ .f32 0x00000000#32)))) n ≠ ⊤ := by
  show 0 ≤ Scalar.select (c n) (Ideal.rsqrt (max (d n) (Ideal.ofBits .f32 0x3F800000#32))) (Ideal.ofBits .f32 0x00000000#32)
    ∧ Scalar.select (c n) (Ideal.rsqrt (max (d n) (Ideal.ofBits .f32 0x3F800000#32))) (Ideal.ofBits .f32 0x00000000#32) ≠ ⊤
  rcases BitVec.eq_zero_or_eq_one (c n) with h0 | h1
  · rw [h0, select_zero, Ideal.ofBits_zero_f32]
    exact ⟨le_refl _, EReal.zero_ne_top⟩
  · rw [h1, select_one, ofBits_one_f32]
    exact rsqrt_max_nonneg _ 1 one_pos

/-- The per-node scale, as a whole vector, has that form (the stages unfolded, nothing evaluated). -/
theorem scale_eq_form : val_main_v16 (F := Ideal) x1
    = select (val_main_v12 (F := Ideal) x1) (Host.rsqrt (F := Ideal) (φ := .f32) (maximumf (F := Ideal) (val_main_v10 (F := Ideal) x1)
        (broadcastInDim S100000 ![] bcast_S_S100000 (constant (F := Ideal) S_ .f32 0x3F800000#32))))
      (broadcastInDim S100000 ![] bcast_S_S100000 (id (constant (F := Ideal) S_ .f32 0x00000000#32))) := rfl

/-- The per-node scale is everywhere a nonnegative real number: where the degree is positive it is the reciprocal
    square root of `max(degree, 1)`, elsewhere it is 0. -/
theorem scale_nonneg (n : S100000.Idx) :
    0 ≤ val_main_v16 (F := Ideal) x1 n ∧ val_main_v16 (F := Ideal) x1 n ≠ ⊤ := by
  rw [scale_eq_form]
  exact scale_form_nonneg (val_main_v12 (F := Ideal) x1) (val_main_v10 (F := Ideal) x1) n

/-- The kernel's degree vector is the reference's (the same accumulation of ones on the destination rows). -/
theorem degK_eq : Cert.KernelIdeal.Chain.degK x1 = val_main_v10 (F := Ideal) x1 := rfl

/-- The kernel's per-node scale is the reference's. -/
theorem disK_eq : Cert.KernelIdeal.Chain.disK x1 = val_main_v16 (F := Ideal) x1 := by
  unfold Cert.KernelIdeal.Chain.disK
  rw [degK_eq, scale_eq_form]
  rfl

/-- The per-node column at row `n` is the per-node scale at `n`. -/
theorem disc_apply (n : Fin 100000) :
    Cert.KernelIdeal.Chain.discCol x1 (ix2 n (0 : Fin 1)) = val_main_v16 (F := Ideal) x1 (ix1 n) := by
  unfold Cert.KernelIdeal.Chain.discCol
  rw [disK_eq]
  exact Cert.LibColumnLayout.broadcastInDim_a_a1_apply ![0] rfl _ _ n 0

/-- A word that is not negative as a signed integer is not below the zero word. -/
theorem cmpi_slt_zero_of_nonneg (w : BitVec 32) (h : 0 ≤ w.toInt) : IntOp.cmpi .slt w 0#32 = 0#1 := by
  unfold IntOp.cmpi
  have hs : w.slt 0#32 = false := by
    rw [BitVec.slt]
    simp only [BitVec.toInt_zero, decide_eq_false_iff_not, not_lt]
    exact h
  show BitVec.ofBool (w.slt 0#32) = 0#1
  rw [hs]
  rfl

/-- Where the destination row is not negative, wrapping it (adding the row count to a negative one) changes nothing. -/
theorem wrapped_dst (e : Fin 1700000) (h : 0 ≤ (val_main_v44 (F := Ideal) x1 (ix2 e (0 : Fin 1))).toInt) :
    val_main_v29 (F := Ideal) x1 (ix2 e (0 : Fin 1)) = val_main_v44 (F := Ideal) x1 (ix2 e (0 : Fin 1)) := by
  rw [val_main_v44_apply] at h ⊢
  rw [val_main_v29_apply, val_main_v28_apply, val_main_v25_apply, val_main_v24_apply, val_main_c_5_apply]
  have hi : idx_main_v29 (ix2 e (0 : Fin 1)) = idx_main_v44 (ix2 e (0 : Fin 1)) := rfl
  rw [hi, cmpi_slt_zero_of_nonneg _ h]
  rfl

/-- The accumulator the scatters start from is zero everywhere. -/
theorem zero_table (i : S100000x128.Idx) : val_main_v43 (F := Ideal) i = 0 := by
  rw [val_main_v43_apply, val_main_cst_9_apply]
  exact Ideal.ofBits_zero_f32

/-- The reference's edge weight, spread over the 128 columns, at `(e, f)`: the scale at the (wrapped, clamped) source
    row times the scale at the (wrapped, clamped) destination row. -/
theorem weight_apply (j : S1700000x128.Idx) :
    val_main_v41 (F := Ideal) x1 j
      = Host.gather gather_S100000_S1700000x1_S1700000_n_0_n_n_0_1_1 (val_main_v16 (F := Ideal) x1) (val_main_v38 (F := Ideal) x1) (ix1 (j 0))
        * Host.gather gather_S100000_S1700000x1_S1700000_n_0_n_n_0_1_1 (val_main_v16 (F := Ideal) x1) (val_main_v29 (F := Ideal) x1) (ix1 (j 0)) := by
  rw [val_main_v41_apply, val_main_v40_apply, val_main_v31_apply]
  have hi : idx_main_v40 (idx_main_v41 j) = ix1 (j 0) := by
    funext a; refine Fin.ext ?_
    match a with
    | ⟨0, _⟩ => rfl
  rw [hi]
  rfl

/-! ## One layer -/

/-- THE LAYER IDENTITY on the programs' own operations: for a table `T` that is `h` with every row scaled by the
    per-node scale, the kernel's accumulation of `T`'s gathered rows, scaled again at the destination, is the
    reference's accumulation of `h`'s gathered rows times the edge weights. -/
theorem layer_eq (h T : S100000x128.Idx → EReal)
    (hT : T = fun p => h p * val_main_v16 (F := Ideal) x1 (ix1 (p 0))) (i : S100000x128.Idx) :
    Cert.KernelIdeal.Chain.discCol x1 (ix2 (i 0) (0 : Fin 1)) * Cert.KernelIdeal.Chain.aggregate x1 T i
      = Host.scatterAdd (F := Ideal) (φ := .f32) scatter_S100000x128_S1700000x1_S1700000x128_1_0_0_1 (val_main_v43 (F := Ideal)) (val_main_v44 (F := Ideal) x1)
          (mulf (F := Ideal) (φ := .f32) (Host.gather gather_S100000x128_S1700000x1_S1700000x128_1_0_n_n_0_1_1128 h (val_main_v38 (F := Ideal) x1)) (val_main_v41 (F := Ideal) x1)) i := by
  subst hT
  have e1 : Cert.KernelIdeal.Chain.discCol x1 (ix2 (i 0) (0 : Fin 1)) = val_main_v16 (F := Ideal) x1 (ix1 (i 0)) := disc_apply x1 (i 0)
  rw [e1]
  unfold Cert.KernelIdeal.Chain.aggregate
  exact Cert.GcnLayer.conv_eq_ops (N := 100000) (R := 1700000) (C := 128) (by decide) gather_S100000x128_S1700000x1_S1700000x128_1_0_n_n_0_1_1128_wf gather_S100000_S1700000x1_S1700000_n_0_n_n_0_1_1_wf scatter_S100000x128_S1700000x1_S1700000x128_1_0_0_1_wf
    Cert.KernelIdeal.scatter_S100000x128_S1700000x1_S1700000x128_1_0_0_1 scatter_S100000x128_S1700000x1_S1700000x128_1_0_0_1 rfl rfl Cert.KernelIdeal.gather_S100000x128_S1700000x1_S1700000x128_1_0_n_n_0_1_1128 gather_S100000x128_S1700000x1_S1700000x128_1_0_n_n_0_1_1128 rfl rfl gather_S100000_S1700000x1_S1700000_n_0_n_n_0_1_1 rfl
    h (val_main_v16 (F := Ideal) x1) (scale_nonneg x1) (val_main_v38 (F := Ideal) x1) (val_main_v44 (F := Ideal) x1) (val_main_v29 (F := Ideal) x1)
    (wrapped_dst x1) (val_main_v43 (F := Ideal)) zero_table (val_main_v41 (F := Ideal) x1) (weight_apply x1) i

variable (x0 : S100000x256.Idx → EReal) (x2 : S256x128.Idx → EReal) (x3 : S128.Idx → EReal) (x4 : S128x128.Idx → EReal)
  (x5 : S128.Idx → EReal) (x6 : S128x41.Idx → EReal) (x7 : S41.Idx → EReal)

/-- A bias row spread over the rows, at `(r, f)`: the bias at `f`. -/
theorem bias1_apply (i : S100000x128.Idx) : val_main_v47 (F := Ideal) x3 i = x3 (ix1 (i 1)) := by
  rw [val_main_v47_apply, val_main_v46_apply]
  exact congrArg x3 (by
    funext a; refine Fin.ext ?_
    match a with
    | ⟨0, _⟩ => rfl)
theorem bias2_apply (i : S100000x128.Idx) : val_main_v65 (F := Ideal) x5 i = x5 (ix1 (i 1)) := by
  rw [val_main_v65_apply, val_main_v64_apply]
  exact congrArg x5 (by
    funext a; refine Fin.ext ?_
    match a with
    | ⟨0, _⟩ => rfl)
theorem bias3_apply (i : S100000x41.Idx) : val_main_v71 (F := Ideal) x7 i = x7 (ix1 (i 1)) := by
  rw [val_main_v71_apply, val_main_v70_apply]
  exact congrArg x7 (by
    funext a; refine Fin.ext ?_
    match a with
    | ⟨0, _⟩ => rfl)

/-! ## The first layer -/

/-- The reference's first matrix product at `(r, f)`. -/
theorem dot1_apply (p : S100000x128.Idx) :
    val_main_v32 (F := Ideal) x0 x2 p = ∑ k : Fin 256, x0 (ix2 (p 0) k) * x2 (ix2 k (p 1)) := by
  rw [val_main_v32_apply]
  refine Finset.sum_congr rfl fun k _ => ?_
  have hl : lidx_main_v32 p k = ix2 (p 0) k := by
    funext a; refine Fin.ext ?_
    match a with
    | ⟨0, _⟩ => rfl
    | ⟨1, _⟩ => rfl
  have hr : ridx_main_v32 p k = ix2 k (p 1) := by
    funext a; refine Fin.ext ?_
    match a with
    | ⟨0, _⟩ => rfl
    | ⟨1, _⟩ => rfl
  rw [hl, hr]
  rfl

/-- The first call's table is the reference's first product with every row scaled by the per-node scale. -/
theorem table1_eq : (Cert.KernelIdeal.Region0.scaledProduct x0 x2 (Cert.KernelIdeal.Chain.discCol x1)) = fun p => val_main_v32 (F := Ideal) x0 x2 p * val_main_v16 (F := Ideal) x1 (ix1 (p 0)) :=
  funext fun p => by
    unfold Cert.KernelIdeal.Region0.scaledProduct
    have e : Cert.KernelIdeal.Chain.discCol x1 (ix2 (p 0) (0 : Fin 1)) = val_main_v16 (F := Ideal) x1 (ix1 (p 0)) := disc_apply x1 (p 0)
    rw [e, dot1_apply x0 x2 p]

/-- The first layer's activations agree. -/
theorem layer1 (i : S100000x128.Idx) : (Cert.KernelIdeal.Region1.activated (Cert.KernelIdeal.Chain.aggregate x1 (Cert.KernelIdeal.Region0.scaledProduct x0 x2 (Cert.KernelIdeal.Chain.discCol x1))) (Cert.KernelIdeal.Chain.discCol x1) x3) i = val_main_v49 (F := Ideal) x0 x1 x2 x3 i := by
  rw [val_main_v49_apply, val_main_v48_apply, bias1_apply]
  have hz : val_main_call1_v0 (F := Ideal) i = Ideal.ofBits .f32 0x00000000#32 := rfl
  rw [hz]
  have h45 : val_main_v45 (F := Ideal) x0 x1 x2 i = (Cert.KernelIdeal.Chain.discCol x1) (ix2 (i 0) (0 : Fin 1)) * (Cert.KernelIdeal.Chain.aggregate x1 (Cert.KernelIdeal.Region0.scaledProduct x0 x2 (Cert.KernelIdeal.Chain.discCol x1))) i := by
    unfold val_main_v45 val_main_v42 val_main_v39
    exact (layer_eq x1 (val_main_v32 (F := Ideal) x0 x2) (Cert.KernelIdeal.Region0.scaledProduct x0 x2 (Cert.KernelIdeal.Chain.discCol x1)) (table1_eq x1 x0 x2) i).symm
  unfold Cert.KernelIdeal.Region1.activated
  exact Cert.GcnLayer.relu_eq _ _ _ _ h45

/-! ## The second layer -/

/-- The reference's second matrix product at `(r, f)`, over the kernel's first activation. -/
theorem dot2_apply (p : S100000x128.Idx) :
    val_main_v50 (F := Ideal) x0 x1 x2 x3 x4 p = ∑ k : Fin 128, (Cert.KernelIdeal.Region1.activated (Cert.KernelIdeal.Chain.aggregate x1 (Cert.KernelIdeal.Region0.scaledProduct x0 x2 (Cert.KernelIdeal.Chain.discCol x1))) (Cert.KernelIdeal.Chain.discCol x1) x3) (ix2 (p 0) k) * x4 (ix2 k (p 1)) := by
  rw [val_main_v50_apply]
  refine Finset.sum_congr rfl fun k _ => ?_
  have hl : lidx_main_v50 p k = ix2 (p 0) k := by
    funext a; refine Fin.ext ?_
    match a with
    | ⟨0, _⟩ => rfl
    | ⟨1, _⟩ => rfl
  have hr : ridx_main_v50 p k = ix2 k (p 1) := by
    funext a; refine Fin.ext ?_
    match a with
    | ⟨0, _⟩ => rfl
    | ⟨1, _⟩ => rfl
  rw [hl, hr, layer1]
  rfl

/-- The second call's table is the reference's second product with every row scaled by the per-node scale. -/
theorem table2_eq : (Cert.KernelIdeal.Region1.scaledNext (Cert.KernelIdeal.Chain.aggregate x1 (Cert.KernelIdeal.Region0.scaledProduct x0 x2 (Cert.KernelIdeal.Chain.discCol x1))) (Cert.KernelIdeal.Chain.discCol x1) x3 x4) = fun p => val_main_v50 (F := Ideal) x0 x1 x2 x3 x4 p * val_main_v16 (F := Ideal) x1 (ix1 (p 0)) :=
  funext fun p => by
    unfold Cert.KernelIdeal.Region1.scaledNext
    have e : Cert.KernelIdeal.Chain.discCol x1 (ix2 (p 0) (0 : Fin 1)) = val_main_v16 (F := Ideal) x1 (ix1 (p 0)) := disc_apply x1 (p 0)
    rw [e, dot2_apply x1 x0 x2 x3 x4 p]

/-- The second layer's activations agree. -/
theorem layer2 (i : S100000x128.Idx) :
    max ((Cert.KernelIdeal.Chain.discCol x1) (ix2 (i 0) (0 : Fin 1)) * (Cert.KernelIdeal.Chain.aggregate x1 (Cert.KernelIdeal.Region1.scaledNext (Cert.KernelIdeal.Chain.aggregate x1 (Cert.KernelIdeal.Region0.scaledProduct x0 x2 (Cert.KernelIdeal.Chain.discCol x1))) (Cert.KernelIdeal.Chain.discCol x1) x3 x4)) i + x5 (ix1 (i 1))) (Ideal.ofBits .f32 0x00000000#32)
      = val_main_v67 (F := Ideal) x0 x1 x2 x3 x4 x5 i := by
  rw [val_main_v67_apply, val_main_v66_apply, bias2_apply]
  have hz : val_main_call2_v0 (F := Ideal) i = Ideal.ofBits .f32 0x00000000#32 := rfl
  rw [hz]
  have h63 : val_main_v63 (F := Ideal) x0 x1 x2 x3 x4 i = (Cert.KernelIdeal.Chain.discCol x1) (ix2 (i 0) (0 : Fin 1)) * (Cert.KernelIdeal.Chain.aggregate x1 (Cert.KernelIdeal.Region1.scaledNext (Cert.KernelIdeal.Chain.aggregate x1 (Cert.KernelIdeal.Region0.scaledProduct x0 x2 (Cert.KernelIdeal.Chain.discCol x1))) (Cert.KernelIdeal.Chain.discCol x1) x3 x4)) i := by
    unfold val_main_v63 val_main_v60 val_main_v57
    rw [show val_main_v61 (F := Ideal) = val_main_v43 (F := Ideal) from rfl, show val_main_v62 (F := Ideal) x1 = val_main_v44 (F := Ideal) x1 from rfl,
      show val_main_v56 (F := Ideal) x1 = val_main_v38 (F := Ideal) x1 from rfl, show val_main_v59 (F := Ideal) x1 = val_main_v41 (F := Ideal) x1 from rfl]
    exact (layer_eq x1 (val_main_v50 (F := Ideal) x0 x1 x2 x3 x4) (Cert.KernelIdeal.Region1.scaledNext (Cert.KernelIdeal.Chain.aggregate x1 (Cert.KernelIdeal.Region0.scaledProduct x0 x2 (Cert.KernelIdeal.Chain.discCol x1))) (Cert.KernelIdeal.Chain.discCol x1) x3 x4) (table2_eq x1 x0 x2 x3 x4) i).symm
  exact Cert.GcnLayer.relu_eq _ _ _ _ h63

/-! ## The head and the log-softmax -/

/-- The host's exponential of any vector, at an index. -/
theorem hostExp_apply {s : Shape} (v : s.Idx → EReal) (i : s.Idx) :
    Host.exp (F := Ideal) (φ := .f32) v i = Ideal.exp (v i) := rfl
/-- The host's logarithm of any vector, at an index. -/
theorem hostLog_apply {s : Shape} (v : s.Idx → EReal) (i : s.Idx) :
    Host.log (F := Ideal) (φ := .f32) v i = Ideal.log (v i) := rfl

/-- The host's row maximum of ANY `[100000, 41]` array: the maximum of the starting value and the reduction from it. -/
def rowMaxH (L : S100000x41.Idx → EReal) : S100000.Idx → EReal :=
  maximumf (F := Ideal) (φ := .f32) (broadcastInDim S100000 ![] bcast_S_S100000 (constant (F := Ideal) S_ .f32 0xFF800000#32))
    (Host.reduce (FloatOps.maximumf (F := Ideal) (φ := .f32)) L (constant (F := Ideal) S_ .f32 0xFF800000#32) reducesTo_S100000x41_S100000_d1 h_S_)

/-- The array less its row maxima. -/
def shiftedH (L : S100000x41.Idx → EReal) : S100000x41.Idx → EReal :=
  subf (F := Ideal) (φ := .f32) L (broadcastInDim S100000x41 ![0, 1] bcast_S100000x1_S100000x41_0_1 (broadcastInDim S100000x1 ![0] bcast_S100000_S100000x1_0 (rowMaxH L)))

/-- The host's log-softmax of ANY array, as its operations. -/
def logSoftmaxH (L : S100000x41.Idx → EReal) : S100000x41.Idx → EReal :=
  subf (F := Ideal) (φ := .f32) (shiftedH L) (broadcastInDim S100000x41 ![0, 1] bcast_S100000x1_S100000x41_0_1 (Host.log (F := Ideal) (φ := .f32) (broadcastInDim S100000x1 ![0] bcast_S100000_S100000x1_0 (Host.reduceAdd (F := Ideal) (φ := .f32) (Host.exp (F := Ideal) (φ := .f32) (shiftedH L)) (constant (F := Ideal) S_ .f32 0x00000000#32) reducesTo_S100000x41_S100000_d1 h_S_))))

/-- The reference's result, as a whole array, is that log-softmax of its logits (the stages unfolded, nothing evaluated). -/
theorem result_eq_form :
    val_main_v73 (F := Ideal) x0 x1 x2 x3 x4 x5 x6 x7 = logSoftmaxH (val_main_v72 (F := Ideal) x0 x1 x2 x3 x4 x5 x6 x7) := rfl

/-- The inserted index of the host's row reduction: row `r`, column `k`. -/
theorem liftH_eq (hR : S100000x41.Reduces [1] S100000) (r : Fin 100000) (k : Fin 41) : hR.lift (ix1 r) k = ix2 r k := by
  funext a; refine Fin.ext ?_
  match a with
  | ⟨0, _⟩ => rfl
  | ⟨1, _⟩ => rfl

/-- The host's row maximum at row `r`: the fold of `max` over the row's 41 entries from the starting value. -/
theorem rowMaxH_apply (L : S100000x41.Idx → EReal) (r : Fin 100000) :
    rowMaxH L (ix1 r) = ((Finset.univ : Finset (Fin 41)).fold max (Ideal.ofBits .f32 0xFF800000#32) (fun k' => L (ix2 r k'))) := by
  have hR : S100000x41.Reduces [1] S100000 := by decide
  have hfun : (L ∘ hR.lift (ix1 r)) = fun k : Fin 41 => L (ix2 r k) := funext fun k => congrArg L (liftH_eq hR r k)
  have hb : (broadcastInDim S100000 ![] bcast_S_S100000 (constant (F := Ideal) S_ .f32 0xFF800000#32)) (ix1 r) = Ideal.ofBits .f32 0xFF800000#32 := rfl
  have hi : (constant (F := Ideal) S_ .f32 0xFF800000#32) (Shape.Idx.first h_S_) = Ideal.ofBits .f32 0xFF800000#32 := rfl
  unfold rowMaxH
  rw [maximumf_apply, Host.reduce_eq_fold_single (FloatOps.maximumf (F := Ideal) (φ := .f32)) L _ reducesTo_S100000x41_S100000_d1 hR h_S_ (ix1 r),
    hfun, hb, hi]
  exact max_fold_max_self _ _ _

/-- The shifted array at `(r, k)`. -/
theorem shiftedH_apply (L : S100000x41.Idx → EReal) (r : Fin 100000) (k : Fin 41) :
    shiftedH L (ix2 r k) = L (ix2 r k) - ((Finset.univ : Finset (Fin 41)).fold max (Ideal.ofBits .f32 0xFF800000#32) (fun k' => L (ix2 r k'))) := by
  unfold shiftedH
  rw [subf_apply, Cert.LibColumnHost.broadcastInDim_a1_ab_apply ![0, 1] rfl rfl, Cert.LibColumnLayout.broadcastInDim_a_a1_apply ![0] rfl,
    rowMaxH_apply]

/-- THE HOST'S LOG-SOFTMAX of any array at `(r, n)` is the row log-softmax the kernel computes. -/
theorem logSoftmaxH_apply (L : S100000x41.Idx → EReal) (r : Fin 100000) (n : Fin 41) :
    logSoftmaxH L (ix2 r n) = logSoftmaxAt L (Ideal.ofBits .f32 0xFF800000#32) r n := by
  have hR : S100000x41.Reduces [1] S100000 := by decide
  have hi0 : (constant (F := Ideal) S_ .f32 0x00000000#32) (Shape.Idx.first h_S_) = Ideal.ofBits .f32 0x00000000#32 := rfl
  have hsum : (Host.reduceAdd (F := Ideal) (φ := .f32) (Host.exp (F := Ideal) (φ := .f32) (shiftedH L)) (constant (F := Ideal) S_ .f32 0x00000000#32) reducesTo_S100000x41_S100000_d1 h_S_) (ix1 r) = ∑ k : Fin 41, Ideal.exp (L (ix2 r k) - ((Finset.univ : Finset (Fin 41)).fold max (Ideal.ofBits .f32 0xFF800000#32) (fun k' => L (ix2 r k')))) := by
    simp only [Host.reduceAdd, Ideal.hostReduceAdd_def]
    rw [Ideal.hostReduceAdd_single reducesTo_S100000x41_S100000_d1 hR, hi0, Ideal.ofBits_zero_f32, zero_add]
    refine Finset.sum_congr rfl fun k _ => ?_
    rw [liftH_eq hR r k, hostExp_apply]
    exact congrArg Ideal.exp (shiftedH_apply L r k)
  unfold logSoftmaxH
  rw [subf_apply, shiftedH_apply, Cert.LibColumnHost.broadcastInDim_a1_ab_apply ![0, 1] rfl rfl, hostLog_apply,
    Cert.LibColumnLayout.broadcastInDim_a_a1_apply ![0] rfl, hsum]
  unfold logSoftmaxAt
  rfl

/-- The sums of the two layers' activations agree. -/
theorem combined_eq (j : S100000x128.Idx) :
    Cert.KernelIdeal.Region2.combined (Cert.KernelIdeal.Region1.activated (Cert.KernelIdeal.Chain.aggregate x1 (Cert.KernelIdeal.Region0.scaledProduct x0 x2 (Cert.KernelIdeal.Chain.discCol x1))) (Cert.KernelIdeal.Chain.discCol x1) x3) (Cert.KernelIdeal.Chain.aggregate x1 (Cert.KernelIdeal.Region1.scaledNext (Cert.KernelIdeal.Chain.aggregate x1 (Cert.KernelIdeal.Region0.scaledProduct x0 x2 (Cert.KernelIdeal.Chain.discCol x1))) (Cert.KernelIdeal.Chain.discCol x1) x3 x4)) (Cert.KernelIdeal.Chain.discCol x1) x5 j = val_main_v68 (F := Ideal) x0 x1 x2 x3 x4 x5 j := by
  rw [val_main_v68_apply, Ideal.addf_def, ← layer1 x1 x0 x2 x3 j, ← layer2 x1 x0 x2 x3 x4 x5 j]
  unfold Cert.KernelIdeal.Region2.combined
  rfl

/-- The head's logits agree. -/
theorem logits_eq : Cert.KernelIdeal.Region2.logits (Cert.KernelIdeal.Region1.activated (Cert.KernelIdeal.Chain.aggregate x1 (Cert.KernelIdeal.Region0.scaledProduct x0 x2 (Cert.KernelIdeal.Chain.discCol x1))) (Cert.KernelIdeal.Chain.discCol x1) x3) (Cert.KernelIdeal.Chain.aggregate x1 (Cert.KernelIdeal.Region1.scaledNext (Cert.KernelIdeal.Chain.aggregate x1 (Cert.KernelIdeal.Region0.scaledProduct x0 x2 (Cert.KernelIdeal.Chain.discCol x1))) (Cert.KernelIdeal.Chain.discCol x1) x3 x4)) (Cert.KernelIdeal.Chain.discCol x1) x5 x6 x7 = val_main_v72 (F := Ideal) x0 x1 x2 x3 x4 x5 x6 x7 := by
  funext i
  rw [val_main_v72_apply, val_main_v69_apply, bias3_apply, Ideal.addf_def]
  unfold Cert.KernelIdeal.Region2.logits
  refine congrArg (· + x7 (ix1 (i 1))) (Finset.sum_congr rfl fun k _ => ?_)
  have hl : lidx_main_v69 i k = ix2 (i 0) k := by
    funext a; refine Fin.ext ?_
    match a with
    | ⟨0, _⟩ => rfl
    | ⟨1, _⟩ => rfl
  have hr : ridx_main_v69 i k = ix2 k (i 1) := by
    funext a; refine Fin.ext ?_
    match a with
    | ⟨0, _⟩ => rfl
    | ⟨1, _⟩ => rfl
  rw [hl, hr]
  exact congrArg (· * x6 (ix2 k (i 1))) (combined_eq x1 x0 x2 x3 x4 x5 (ix2 (i 0) k))

/-- THE TWO PROGRAMS COMPUTE ONE FUNCTION of the argument arrays, over the extended reals. -/
theorem kernel_eq_reference :
    Cert.KernelIdeal.Chain.kernelOut x0 x1 x2 x3 x4 x5 x6 x7 = val_main_v73 (F := Ideal) x0 x1 x2 x3 x4 x5 x6 x7 := by
  rw [result_eq_form, ← logits_eq x1 x0 x2 x3 x4 x5 x6 x7]
  funext i
  obtain ⟨r, n, rfl⟩ : ∃ (r : Fin 100000) (n : Fin 41), i = ix2 r n := ⟨i 0, i 1, eq_ix2 i⟩
  rw [logSoftmaxH_apply]
  unfold Cert.KernelIdeal.Chain.kernelOut Cert.KernelIdeal.Region2.result
  rfl

end Cert.Bridge

end
-- ==== Proof.lean ====
/-
  Two programs for a two-layer graph convolution with a linear head and a log-softmax, equal over the extended reals.

  The reference scales every gathered edge row by  δ[src]·δ[dst]  (δ the per-node scale: 0, or the reciprocal square root
  of the degree raised to at least 1) and accumulates it on its destination row.  The kernel factors the scale onto the
  nodes: three pallas_calls over 20 row blocks each compute, per block, the matrix products, the scalings by δ before
  the gather and after the accumulation, the biases and clamps, and finally the head and the row-wise log-softmax, while
  the gathers and the accumulations stay host operations between the calls.

  The kernel's result buffer is read off its run boundary by boundary (each call leaves one function of the arrays it
  finds, its blocks tiling the rows); the reference's off the fold of its 109 host operations, cut after each layer.
  The two functions of the arguments are equal because δ is a nonnegative real, so that multiplying by it distributes
  over the finite sum an accumulation is, and because every edge accumulated on a row has that row as destination; the
  two log-softmaxes are the same expression of the same logits.  No finiteness of the inputs is used.
-/
import proofs.«134318_j91207925498527_2_alg».proof.Defs
import proofs.«134318_j91207925498527_2_alg».proof.Proof.Gen.Kernel
import proofs.«134318_j91207925498527_2_alg».proof.Proof.Gen.Kernel.Skeleton
import proofs.«134318_j91207925498527_2_alg».proof.Proof.Gen.Kernel.Launch
import proofs.«134318_j91207925498527_2_alg».proof.Proof.Gen.Kernel.Points
import proofs.«134318_j91207925498527_2_alg».proof.Proof.Gen.Kernel.Frame
import proofs.«134318_j91207925498527_2_alg».proof.Proof.Gen.KernelIdeal
import proofs.«134318_j91207925498527_2_alg».proof.Proof.Gen.KernelIdeal.Skeleton
import proofs.«134318_j91207925498527_2_alg».proof.Proof.Gen.KernelIdeal.Launch
import proofs.«134318_j91207925498527_2_alg».proof.Proof.Gen.KernelIdeal.Points
import proofs.«134318_j91207925498527_2_alg».proof.Proof.Gen.KernelIdeal.Frame
import proofs.«134318_j91207925498527_2_alg».proof.Proof.Gen.ReferenceIdeal
import proofs.«134318_j91207925498527_2_alg».proof.Proof.Gen.Pre_finite_inputs
import proofs.«134318_j91207925498527_2_alg».proof.Proof.KernelValue
import proofs.«134318_j91207925498527_2_alg».proof.Proof.RefValue
import proofs.«134318_j91207925498527_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The idealized reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- From memories agreeing on the arguments both idealized programs end with the same result array: the kernel's
    function of the arguments, which is the reference's. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Chain.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.kernel_value m ρ c), (h c).2⟩)
      (Cert.KernelIdeal.RunValue.run_value (F := Ideal) m ρ)
  · refine (θ_run Cert.ReferenceIdeal.defs _ _).mono (fun r h c => ⟨(h c).1.trans ?_, (h c).2⟩) (Cert.ReferenceIdeal.RefRun.run (F := Ideal) m' ρ')
    obtain ⟨a0, a1, a2, a3, a4, a5, a6, a7⟩ := hagree c
    have e : StableHlo.after (Cert.ReferenceIdeal.ValueP.ops (F := Ideal)) (StableHlo.launchContents m' c) (Proc.devRef .tc Cert.ReferenceIdeal.main_v73)
        = Cert.ReferenceIdeal.ReadP.val_main_v73 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) :=
      Cert.ReferenceIdeal.RefValue.value (F := Ideal) (StableHlo.launchContents m' c)
    rw [e, a0, a1, a2, a3, a4, a5, a6, a7]
    exact (Cert.Bridge.kernel_eq_reference (m ((c.tc : Thread Cert.KernelIdeal.nD Cert.KernelIdeal.τ).loc Cert.KernelIdeal.main_arg1)) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
